-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x80x80x5 : Shape := ⟨4, ![1024, 80, 80, 5]⟩
abbrev S1024x80x80x4 : Shape := ⟨4, ![1024, 80, 80, 4]⟩
abbrev S1024x80x80 : Shape := ⟨3, ![1024, 80, 80]⟩
abbrev S_ : Shape := ⟨0, ![]⟩

class Facts : Prop where
  bcast_S_S1024x80x80x5 : S_.BroadcastsInDim S1024x80x80x5 (![] : Fin 0 → Fin S1024x80x80x5.rank)
  reducesTo_S1024x80x80x5_S_d0_1_2_3 : S1024x80x80x5.ReducesTo [0, 1, 2, 3] S_
  h_S_ : 0 < S_.numel
  bcast_S_S1024x80x80x4 : S_.BroadcastsInDim S1024x80x80x4 (![] : Fin 0 → Fin S1024x80x80x4.rank)
  reducesTo_S1024x80x80x4_S_d0_1_2_3 : S1024x80x80x4.ReducesTo [0, 1, 2, 3] S_

variable [Facts]

def fn {F : FTy → Type} [FloatOps F] (main_arg0 : FVec F S1024x80x80x5 .f32) (main_arg1 : FVec F S1024x80x80x4 .f32) (main_arg2 : IVec S1024x80x80 32) : IVec S_ 1 :=
  let main_v0 : FVec F S1024x80x80x5 .f32 := Host.absf main_arg0
  let main_cst : FVec F S_ .f32 := constant S_ .f32 0x7F800000#32
  let main_v1 : FVec F S1024x80x80x5 .f32 := broadcastInDim S1024x80x80x5 ![] bcast_S_S1024x80x80x5 main_cst
  let main_v2 : IVec S1024x80x80x5 1 := cmpf .olt main_v0 main_v1
  let main_c : IVec S_ 1 := constantI S_ 1 1#1
  let main_v3 : IVec S_ 1 := (fun x v => Host.reduce IntOp.andi x v reducesTo_S1024x80x80x5_S_d0_1_2_3 h_S_) main_v2 main_c
  let main_v4 : FVec F S1024x80x80x4 .f32 := Host.absf main_arg1
  let main_cst_0 : FVec F S_ .f32 := constant S_ .f32 0x7F800000#32
  let main_v5 : FVec F S1024x80x80x4 .f32 := broadcastInDim S1024x80x80x4 ![] bcast_S_S1024x80x80x4 main_cst_0
  let main_v6 : IVec S1024x80x80x4 1 := cmpf .olt main_v4 main_v5
  let main_c_1 : IVec S_ 1 := constantI S_ 1 1#1
  let main_v7 : IVec S_ 1 := (fun x v => Host.reduce IntOp.andi x v reducesTo_S1024x80x80x4_S_d0_1_2_3 h_S_) main_v6 main_c_1
  let main_v8 : IVec S_ 1 := andi main_v3 main_v7
  main_v8
-- ==== Kernel.lean ====
abbrev S1024x80x80x5 : Shape := ⟨4, ![1024, 80, 80, 5]⟩
abbrev S1024x80x80x4 : Shape := ⟨4, ![1024, 80, 80, 4]⟩
abbrev S1024x80x80 : Shape := ⟨3, ![1024, 80, 80]⟩
abbrev S5x1024x80x80 : Shape := ⟨4, ![5, 1024, 80, 80]⟩
abbrev S5x1024x6400 : Shape := ⟨3, ![5, 1024, 6400]⟩
abbrev S4x1024x80x80 : Shape := ⟨4, ![4, 1024, 80, 80]⟩
abbrev S4x1024x6400 : Shape := ⟨3, ![4, 1024, 6400]⟩
abbrev S1024x6400 : Shape := ⟨2, ![1024, 6400]⟩
abbrev S2x8x128 : Shape := ⟨3, ![2, 8, 128]⟩
abbrev S5x64x6400 : Shape := ⟨3, ![5, 64, 6400]⟩
abbrev S4x64x6400 : Shape := ⟨3, ![4, 64, 6400]⟩
abbrev S64x6400 : Shape := ⟨2, ![64, 6400]⟩
abbrev S1x8x128 : Shape := ⟨3, ![1, 8, 128]⟩
abbrev S1x64x6400 : Shape := ⟨3, ![1, 64, 6400]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩

abbrev nBuf : Space → Nat
  | .hbm => 15
  | .vmem => 9
  | .smem => 0
  | _ => 0

abbrev bufTy : (tb : Table) → Fin (tcTables nBuf tb) → BufTy
  | .hbm, ⟨0, _⟩ => ⟨S1024x80x80x5, .f32⟩
  | .hbm, ⟨1, _⟩ => ⟨S1024x80x80x4, .f32⟩
  | .hbm, ⟨2, _⟩ => ⟨S1024x80x80, .i32⟩
  | .hbm, ⟨3, _⟩ => ⟨S5x1024x80x80, .f32⟩
  | .hbm, ⟨4, _⟩ => ⟨S5x1024x6400, .f32⟩
  | .hbm, ⟨5, _⟩ => ⟨S4x1024x80x80, .f32⟩
  | .hbm, ⟨6, _⟩ => ⟨S4x1024x6400, .f32⟩
  | .hbm, ⟨7, _⟩ => ⟨S1024x6400, .i32⟩
  | .hbm, ⟨8, _⟩ => ⟨S2x8x128, .f32⟩
  | .hbm, ⟨9, _⟩ => ⟨S2x1x1, .f32⟩
  | .hbm, ⟨10, _⟩ => ⟨S2, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S5x64x6400, .f32⟩
  | .local _ .vmem, ⟨1, _⟩ => ⟨S5x64x6400, .f32⟩
  | .local _ .vmem, ⟨2, _⟩ => ⟨S4x64x6400, .f32⟩
  | .local _ .vmem, ⟨3, _⟩ => ⟨S4x64x6400, .f32⟩
  | .local _ .vmem, ⟨4, _⟩ => ⟨S64x6400, .i32⟩
  | .local _ .vmem, ⟨5, _⟩ => ⟨S64x6400, .i32⟩
  | .local _ .vmem, ⟨6, _⟩ => ⟨S1x8x128, .f32⟩
  | .local _ .vmem, ⟨7, _⟩ => ⟨S1x8x128, .f32⟩
  | .local _ .vmem, ⟨8, _⟩ => ⟨S64x6400, .f32⟩
  | _, _ => ⟨S1024x80x80x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v105 : BitVec 1 := Scalar.cmpi .eq arg1 c7_i32
  let v106 : BitVec 32 := Scalar.extui v105
  let c0_i32_44 : BitVec 32 := 0#32
  let v107 : BitVec 1 := Scalar.cmpi .ne v106 c0_i32_44
  v107

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5x64x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x6400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x6400 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S1024x80x80x5_S5x1024x80x80_3_0_1_2 : S1024x80x80x5.Transposes [3, 0, 1, 2] S5x1024x80x80
  shapeCasts_S5x1024x80x80_S5x1024x6400 : S5x1024x80x80.ShapeCasts S5x1024x6400
  transposes_S1024x80x80x4_S4x1024x80x80_3_0_1_2 : S1024x80x80x4.Transposes [3, 0, 1, 2] S4x1024x80x80
  shapeCasts_S4x1024x80x80_S4x1024x6400 : S4x1024x80x80.ShapeCasts S4x1024x6400
  shapeCasts_S1024x80x80_S1024x6400 : S1024x80x80.ShapeCasts S1024x6400
  inb_S64x6400_S64x6400_0_0 : ∀ a, (![0, 0] : Fin 2 → Nat) a + S64x6400.size a ≤ S64x6400.size a
  h_S64x6400 : 0 < S64x6400.numel
  shapeCasts_S64x6400_S64x6400 : S64x6400.ShapeCasts S64x6400
  inb_S5x64x6400_S1x64x6400_0_0_0 : ∀ a, (![0, 0, 0] : Fin 3 → Nat) a + S1x64x6400.size a ≤ S5x64x6400.size a
  h_S1x64x6400 : 0 < S1x64x6400.numel
  shapeCasts_S1x64x6400_S64x6400 : S1x64x6400.ShapeCasts S64x6400
  inb_S5x64x6400_S1x64x6400_1_0_0 : ∀ a, (![1, 0, 0] : Fin 3 → Nat) a + S1x64x6400.size a ≤ S5x64x6400.size a
  inb_S5x64x6400_S1x64x6400_2_0_0 : ∀ a, (![2, 0, 0] : Fin 3 → Nat) a + S1x64x6400.size a ≤ S5x64x6400.size a
  inb_S5x64x6400_S1x64x6400_3_0_0 : ∀ a, (![3, 0, 0] : Fin 3 → Nat) a + S1x64x6400.size a ≤ S5x64x6400.size a
  inb_S5x64x6400_S1x64x6400_4_0_0 : ∀ a, (![4, 0, 0] : Fin 3 → Nat) a + S1x64x6400.size a ≤ S5x64x6400.size a
  inb_S4x64x6400_S1x64x6400_0_0_0 : ∀ a, (![0, 0, 0] : Fin 3 → Nat) a + S1x64x6400.size a ≤ S4x64x6400.size a
  inb_S4x64x6400_S1x64x6400_1_0_0 : ∀ a, (![1, 0, 0] : Fin 3 → Nat) a + S1x64x6400.size a ≤ S4x64x6400.size a
  inb_S4x64x6400_S1x64x6400_2_0_0 : ∀ a, (![2, 0, 0] : Fin 3 → Nat) a + S1x64x6400.size a ≤ S4x64x6400.size a
  inb_S4x64x6400_S1x64x6400_3_0_0 : ∀ a, (![3, 0, 0] : Fin 3 → Nat) a + S1x64x6400.size a ≤ S4x64x6400.size a
  natLt_1_32 : 1 < 32
  shapeCasts_S64x6400_S1x64x6400 : S64x6400.ShapeCasts S1x64x6400
  reduces_S1x64x6400_S1 : S1x64x6400.Reduces [1, 2] S1
  shapeCasts_S1_S1x1x1 : S1.ShapeCasts S1x1x1
  inpos_S1x1x1_p0_0_0 : ∀ a, (![0, 0, 0] : Fin 3 → Nat) a < S1x1x1.size a
  inb_S1x8x128_S1x8x128_0_0_0 : ∀ a, (![0, 0, 0] : Fin 3 → Nat) a + S1x8x128.size a ≤ S1x8x128.size a
  h_S1x8x128 : 0 < S1x8x128.numel
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x64x6400.size a ≤ S5x1024x6400.size a
  hwx0_0 : ∀ i : grid0.Coords, EltTy.bits .f32 = 32 ∨ (Rect.block (s := S5x1024x6400) S5x64x6400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x64x6400.size a ≤ S4x1024x6400.size a
  hwx0_1 : ∀ i : grid0.Coords, EltTy.bits .f32 = 32 ∨ (Rect.block (s := S4x1024x6400) S4x64x6400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x6400.size a ≤ S1024x6400.size a
  hwx0_2 : ∀ i : grid0.Coords, EltTy.bits .i32 = 32 ∨ (Rect.block (s := S1024x6400) S64x6400.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

abbrev win0_0 : Pipeline.Window sig grid0 :=
  Pipeline.Window.ofSpec (Memref.whole main_v1) S5x64x6400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4x64x6400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64x6400.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x80x80x5 : Shape := ⟨4, ![1024, 80, 80, 5]⟩
abbrev S1024x80x80x4 : Shape := ⟨4, ![1024, 80, 80, 4]⟩
abbrev S1024x80x80 : Shape := ⟨3, ![1024, 80, 80]⟩
abbrev S_ : Shape := ⟨0, ![]⟩
abbrev S1024x80x80x1 : Shape := ⟨4, ![1024, 80, 80, 1]⟩

abbrev nBuf : Space → Nat
  | .hbm => 122
  | .vmem => 0
  | .smem => 0
  | _ => 0

abbrev bufTy : (tb : Table) → Fin (tcTables nBuf tb) → BufTy
  | .hbm, ⟨0, _⟩ => ⟨S1024x80x80x5, .f32⟩
  | .hbm, ⟨1, _⟩ => ⟨S1024x80x80x4, .f32⟩
  | .hbm, ⟨2, _⟩ => ⟨S1024x80x80, .i32⟩
  | .hbm, ⟨3, _⟩ => ⟨S_, .i32⟩
  | .hbm, ⟨4, _⟩ => ⟨S1024x80x80, .i32⟩
  | .hbm, ⟨5, _⟩ => ⟨S1024x80x80, .i1⟩
  | .hbm, ⟨6, _⟩ => ⟨S1024x80x80, .f32⟩
  | .hbm, ⟨7, _⟩ => ⟨S1024x80x80x1, .f32⟩
  | .hbm, ⟨8, _⟩ => ⟨S1024x80x80, .f32⟩
  | .hbm, ⟨9, _⟩ => ⟨S1024x80x80x1, .f32⟩
  | .hbm, ⟨10, _⟩ => ⟨S1024x80x80, .f32⟩
  | .hbm, ⟨11, _⟩ => ⟨S1024x80x80x1, .f32⟩
  | .hbm, ⟨12, _⟩ => ⟨S1024x80x80, .f32⟩
  | .hbm, ⟨13, _⟩ => ⟨S1024x80x80x1, .f32⟩
  | .hbm, ⟨14, _⟩ => ⟨S1024x80x80, .f32⟩
  | .hbm, ⟨15, _⟩ => ⟨S1024x80x80x1, .f32⟩
  | .hbm, ⟨16, _⟩ => ⟨S1024x80x80, .f32⟩
  | .hbm, ⟨17, _⟩ => ⟨S1024x80x80x1, .f32⟩
  | .hbm, ⟨18, _⟩ => ⟨S1024x80x80, .f32⟩
  | .hbm, ⟨19, _⟩ => ⟨S1024x80x80x1, .f32⟩
  | .hbm, ⟨20, _⟩ => ⟨S1024x80x80, .f32⟩
  | .hbm, ⟨21, _⟩ => ⟨S1024x80x80x1, .f32⟩
  | .hbm, ⟨22, _⟩ => ⟨S1024x80x80, .f32⟩
  | .hbm, ⟨23, _⟩ => ⟨S1024x80x80x1, .f32⟩
  | .hbm, ⟨24, _⟩ => ⟨S1024x80x80, .f32⟩
  | .hbm, ⟨25, _⟩ => ⟨S_, .f32⟩
  | .hbm, ⟨26, _⟩ => ⟨S1024x80x80, .f32⟩
  | .hbm, ⟨27, _⟩ => ⟨S1024x80x80, .f32⟩
  | .hbm, ⟨28, _⟩ => ⟨S_, .f32⟩
  | .hbm, ⟨29, _⟩ => ⟨S1024x80x80, .f32⟩
  | .hbm, ⟨30, _⟩ => ⟨S1024x80x80, .f32⟩
  | .hbm, ⟨31, _⟩ => ⟨S1024x80x80, .f32⟩
  | .hbm, ⟨32, _⟩ => ⟨S_, .f32⟩
  | .hbm, ⟨33, _⟩ => ⟨S1024x80x80, .f32⟩
  | .hbm, ⟨34, _⟩ => ⟨S1024x80x80, .f32⟩
  | .hbm, ⟨35, _⟩ => ⟨S1024x80x80, .f32⟩
  | .hbm, ⟨36, _⟩ => ⟨S_, .f32⟩
  | .hbm, ⟨37, _⟩ => ⟨S1024x80x80, .f32⟩
  | .hbm, ⟨38, _⟩ => ⟨S1024x80x80, .f32⟩
  | .hbm, ⟨39, _⟩ => ⟨S1024x80x80, .f32⟩
  | .hbm, ⟨40, _⟩ => ⟨S_, .f32⟩
  | .hbm, ⟨41, _⟩ => ⟨S1024x80x80, .f32⟩
  | .hbm, ⟨42, _⟩ => ⟨S1024x80x80, .f32⟩
  | .hbm, ⟨43, _⟩ => ⟨S1024x80x80, .f32⟩
  | .hbm, ⟨44, _⟩ => ⟨S_, .f32⟩
  | .hbm, ⟨45, _⟩ => ⟨S1024x80x80, .f32⟩
  | .hbm, ⟨46, _⟩ => ⟨S1024x80x80, .f32⟩
  | .hbm, ⟨47, _⟩ => ⟨S_, .f32⟩
  | .hbm, ⟨48, _⟩ => ⟨S1024x80x80, .f32⟩
  | .hbm, ⟨49, _⟩ => ⟨S1024x80x80, .f32⟩
  | .hbm, ⟨50, _⟩ => ⟨S1024x80x80, .f32⟩
  | .hbm, ⟨51, _⟩ => ⟨S_, .f32⟩
  | .hbm, ⟨52, _⟩ => ⟨S1024x80x80, .f32⟩
  | .hbm, ⟨53, _⟩ => ⟨S1024x80x80, .f32⟩
  | .hbm, ⟨54, _⟩ => ⟨S1024x80x80, .f32⟩
  | .hbm, ⟨55, _⟩ => ⟨S_, .f32⟩
  | .hbm, ⟨56, _⟩ => ⟨S1024x80x80, .f32⟩
  | .hbm, ⟨57, _⟩ => ⟨S1024x80x80, .f32⟩
  | .hbm, ⟨58, _⟩ => ⟨S1024x80x80, .f32⟩
  | .hbm, ⟨59, _⟩ => ⟨S_, .f32⟩
  | .hbm, ⟨60, _⟩ => ⟨S1024x80x80, .f32⟩
  | .hbm, ⟨61, _⟩ => ⟨S1024x80x80, .f32⟩
  | .hbm, ⟨62, _⟩ => ⟨S1024x80x80, .f32⟩
  | .hbm, ⟨63, _⟩ => ⟨S1024x80x80, .f32⟩
  | .hbm, ⟨64, _⟩ => ⟨S1024x80x80, .f32⟩
  | .hbm, ⟨65, _⟩ => ⟨S1024x80x80, .f32⟩
  | .hbm, ⟨66, _⟩ => ⟨S_, .f32⟩
  | .hbm, ⟨67, _⟩ => ⟨S1024x80x80, .f32⟩
  | .hbm, ⟨68, _⟩ => ⟨S1024x80x80, .f32⟩
  | .hbm, ⟨69, _⟩ => ⟨S1024x80x80, .f32⟩
  | .hbm, ⟨70, _⟩ => ⟨S1024x80x80, .f32⟩
  | .hbm, ⟨71, _⟩ => ⟨S1024x80x80, .f32⟩
  | .hbm, ⟨72, _⟩ => ⟨S_, .f32⟩
  | .hbm, ⟨73, _⟩ => ⟨S1024x80x80, .f32⟩
  | .hbm, ⟨74, _⟩ => ⟨S1024x80x80, .f32⟩
  | .hbm, ⟨75, _⟩ => ⟨S1024x80x80, .f32⟩
  | .hbm, ⟨76, _⟩ => ⟨S1024x80x80, .f32⟩
  | .hbm, ⟨77, _⟩ => ⟨S1024x80x80, .f32⟩
  | .hbm, ⟨78, _⟩ => ⟨S1024x80x80, .f32⟩
  | .hbm, ⟨79, _⟩ => ⟨S1024x80x80, .f32⟩
  | .hbm, ⟨80, _⟩ => ⟨S1024x80x80, .f32⟩
  | .hbm, ⟨81, _⟩ => ⟨S1024x80x80, .f32⟩
  | .hbm, ⟨82, _⟩ => ⟨S1024x80x80, .f32⟩
  | .hbm, ⟨83, _⟩ => ⟨S1024x80x80, .f32⟩
  | .hbm, ⟨84, _⟩ => ⟨S1024x80x80, .f32⟩
  | .hbm, ⟨85, _⟩ => ⟨S1024x80x80, .f32⟩
  | .hbm, ⟨86, _⟩ => ⟨S1024x80x80, .f32⟩
  | .hbm, ⟨87, _⟩ => ⟨S_, .f32⟩
  | .hbm, ⟨88, _⟩ => ⟨S_, .f32⟩
  | .hbm, ⟨89, _⟩ => ⟨S1024x80x80, .f32⟩
  | .hbm, ⟨90, _⟩ => ⟨S1024x80x80, .f32⟩
  | .hbm, ⟨91, _⟩ => ⟨S1024x80x80, .f32⟩
  | .hbm, ⟨92, _⟩ => ⟨S1024x80x80, .f32⟩
  | .hbm, ⟨93, _⟩ => ⟨S1024x80x80, .f32⟩
  | .hbm, ⟨94, _⟩ => ⟨S1024x80x80, .f32⟩
  | .hbm, ⟨95, _⟩ => ⟨S1024x80x80, .f32⟩
  | .hbm, ⟨96, _⟩ => ⟨S1024x80x80, .f32⟩
  | .hbm, ⟨97, _⟩ => ⟨S1024x80x80, .f32⟩
  | .hbm, ⟨98, _⟩ => ⟨S1024x80x80, .f32⟩
  | .hbm, ⟨99, _⟩ => ⟨S_, .f32⟩
  | .hbm, ⟨100, _⟩ => ⟨S_, .f32⟩
  | .hbm, ⟨101, _⟩ => ⟨S1024x80x80, .f32⟩
  | .hbm, ⟨102, _⟩ => ⟨S1024x80x80, .f32⟩
  | .hbm, ⟨103, _⟩ => ⟨S1024x80x80, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S1024x80x80, .f32⟩
  | .hbm, ⟨108, _⟩ => ⟨S1024x80x80, .f32⟩
  | .hbm, ⟨109, _⟩ => ⟨S1024x80x80, .f32⟩
  | .hbm, ⟨110, _⟩ => ⟨S1024x80x80, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | _, _ => ⟨S1024x80x80x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_9 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_11 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_cst_12 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_13 : Ref sig .tc := ⟨.hbm, 104, rfl⟩
abbrev main_v86 : Ref sig .tc := ⟨.hbm, 105, rfl⟩
abbrev main_cst_14 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_cst_15 : Ref sig .tc := ⟨.hbm, 111, rfl⟩
abbrev main_v91 : Ref sig .tc := ⟨.hbm, 112, rfl⟩
abbrev main_v92 : Ref sig .tc := ⟨.hbm, 113, rfl⟩
abbrev main_cst_16 : Ref sig .tc := ⟨.hbm, 114, rfl⟩
abbrev main_v93 : Ref sig .tc := ⟨.hbm, 115, rfl⟩
abbrev main_v94 : Ref sig .tc := ⟨.hbm, 116, rfl⟩
abbrev main_cst_17 : Ref sig .tc := ⟨.hbm, 117, rfl⟩
abbrev main_v95 : Ref sig .tc := ⟨.hbm, 118, rfl⟩
abbrev main_v96 : Ref sig .tc := ⟨.hbm, 119, rfl⟩
abbrev main_cst_18 : Ref sig .tc := ⟨.hbm, 120, rfl⟩
abbrev main_v97 : Ref sig .tc := ⟨.hbm, 121, rfl⟩

abbrev nD : Nat := 1
abbrev τ : Topo := Topo.v7x

variable {F : FTy → Type} [FloatOps F]

class Facts₀ : Prop where
  bcast_S_S1024x80x80 : S_.BroadcastsInDim S1024x80x80 (![] : Fin 0 → Fin S1024x80x80.rank)
  slices_S1024x80x80x5_S1024x80x80x1_0_0_0_0 : S1024x80x80x5.Slices ![0, 0, 0, 0] S1024x80x80x1
  shapeCasts_S1024x80x80x1_S1024x80x80 : S1024x80x80x1.ShapeCasts S1024x80x80
  slices_S1024x80x80x5_S1024x80x80x1_0_0_0_1 : S1024x80x80x5.Slices ![0, 0, 0, 1] S1024x80x80x1
  slices_S1024x80x80x5_S1024x80x80x1_0_0_0_2 : S1024x80x80x5.Slices ![0, 0, 0, 2] S1024x80x80x1
  slices_S1024x80x80x5_S1024x80x80x1_0_0_0_3 : S1024x80x80x5.Slices ![0, 0, 0, 3] S1024x80x80x1
  slices_S1024x80x80x5_S1024x80x80x1_0_0_0_4 : S1024x80x80x5.Slices ![0, 0, 0, 4] S1024x80x80x1
  slices_S1024x80x80x4_S1024x80x80x1_0_0_0_0 : S1024x80x80x4.Slices ![0, 0, 0, 0] S1024x80x80x1
  slices_S1024x80x80x4_S1024x80x80x1_0_0_0_1 : S1024x80x80x4.Slices ![0, 0, 0, 1] S1024x80x80x1
  slices_S1024x80x80x4_S1024x80x80x1_0_0_0_2 : S1024x80x80x4.Slices ![0, 0, 0, 2] S1024x80x80x1
  slices_S1024x80x80x4_S1024x80x80x1_0_0_0_3 : S1024x80x80x4.Slices ![0, 0, 0, 3] S1024x80x80x1
  reducesTo_S1024x80x80_S_d0_1_2 : S1024x80x80.ReducesTo [0, 1, 2] S_
  h_S_ : 0 < S_.numel

variable [Facts₀]

class Facts : Prop extends Facts₀ where

variable [Facts]
-- ==== Proof.KernelPieces.lean ====
/-
  What one grid point of the accumulating program leaves behind, for any float instance.

  The body reads the point's blocks — five channel slabs of the prediction block, four of the target block, the object
  words — forms every cell's contribution, and adds it, cell by cell, to an accumulator of one block's shape that it keeps
  between points. At the first point of each core's run the accumulator is first set to zero; at the last the accumulator
  is summed over all its cells and that one number is spread over the core's output block.
  `step acc x0 x1 x2` is the accumulator after a point that found `acc`: the three control cases leave `step zero …`,
  `step acc …`, and again `step acc …` with the output block at `spreadSum (step acc …)`.
-/
import proofs.«100956_j25546465477236_2_alg».proof.Proof.Gen.KernelIdeal.Frame
import Idealize.ShloMosaic.Lib.Pipeline.Value
import Idealize.ShloMosaic.Lib.Tactic

set_option maxRecDepth 16384

noncomputable section

namespace Cert.KernelIdeal.Acc

open Cert.KernelIdeal Cert.KernelIdeal.Gen
open Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator a point leaves when it found `acc`: `acc` plus every cell's contribution, the contributions formed from
    the channel slabs of the point's blocks. -/
def step (acc : Vec F S64x6400 .f32) (x0 : Vec F S5x64x6400 .f32) (x1 : Vec F S4x64x6400 .f32) (x2 : Vec F S64x6400 .i32) : Vec F S64x6400 .f32 :=
  k0_pay1 (k0_pay5 (View.ld x0 (Rect.unit ![1, 0, 0] ![1, 64, 6400] inb_S5x64x6400_S1x64x6400_1_0_0)))
    (k0_pay6 (View.ld x0 (Rect.unit ![2, 0, 0] ![1, 64, 6400] inb_S5x64x6400_S1x64x6400_2_0_0)))
    (k0_pay7 (View.ld x0 (Rect.unit ![3, 0, 0] ![1, 64, 6400] inb_S5x64x6400_S1x64x6400_3_0_0)))
    (k0_pay8 (View.ld x0 (Rect.unit ![4, 0, 0] ![1, 64, 6400] inb_S5x64x6400_S1x64x6400_4_0_0)))
    (k0_pay10 (View.ld x1 (Rect.unit ![1, 0, 0] ![1, 64, 6400] inb_S4x64x6400_S1x64x6400_1_0_0)))
    (k0_pay11 (View.ld x1 (Rect.unit ![2, 0, 0] ![1, 64, 6400] inb_S4x64x6400_S1x64x6400_2_0_0)))
    (k0_pay12 (View.ld x1 (Rect.unit ![3, 0, 0] ![1, 64, 6400] inb_S4x64x6400_S1x64x6400_3_0_0)))
    (k0_pay14 (k0_pay13 x2))
    (k0_pay15 (k0_pay6 (View.ld x0 (Rect.unit ![2, 0, 0] ![1, 64, 6400] inb_S5x64x6400_S1x64x6400_2_0_0)))
      (k0_pay7 (View.ld x0 (Rect.unit ![3, 0, 0] ![1, 64, 6400] inb_S5x64x6400_S1x64x6400_3_0_0)))
      (k0_pay11 (View.ld x1 (Rect.unit ![2, 0, 0] ![1, 64, 6400] inb_S4x64x6400_S1x64x6400_2_0_0)))
      (k0_pay12 (View.ld x1 (Rect.unit ![3, 0, 0] ![1, 64, 6400] inb_S4x64x6400_S1x64x6400_3_0_0))))
    (k0_pay16 (k0_pay4 (View.ld x0 (Rect.unit ![0, 0, 0] ![1, 64, 6400] inb_S5x64x6400_S1x64x6400_0_0_0)))
      (k0_pay9 (View.ld x1 (Rect.unit ![0, 0, 0] ![1, 64, 6400] inb_S4x64x6400_S1x64x6400_0_0_0))))
    acc

/-- The zero block the first point of a core's run stores before accumulating. -/
abbrev zeroBlock : Vec F S64x6400 .f32 := k0_pay3

/-- The output block of a core's last point: the accumulator's total, at every entry. -/
abbrev spreadSum (acc : Vec F S64x6400 .f32) : Vec F S1x8x128 .f32 := k0_pay2 acc

/-- A first point (the accumulator reset, then added to): `step zero`. -/
theorem first_leaves (c : Dev nD) (i : grid0.Coords) (arg2 : Memref sig .tc .vmem S5x64x6400 .f32) (harg2 : arg2.IsWhole) (arg3 : Memref sig .tc .vmem S4x64x6400 .f32) (harg3 : arg3.IsWhole) (arg4 : Memref sig .tc .vmem S64x6400 .i32) (harg4 : arg4.IsWhole) (arg5 : Memref sig .tc .vmem S1x8x128 .f32) (harg5 : arg5.IsWhole) (arg6 : Memref sig .tc .vmem S64x6400 .f32) (harg6 : arg6.IsWhole) (hc0 : cond0_0 i) (hc1 : ¬cond0_1 i) (x0 : Vec F S5x64x6400 .f32) (x1 : Vec F S4x64x6400 .f32) (x2 : Vec F S64x6400 .i32) :
    sout0_A_0 c i arg2 harg2 arg3 harg3 arg4 harg4 arg5 harg5 arg6 harg6 hc0 hc1 x0 x1 x2 = step zeroBlock x0 x1 x2 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S64x6400) hz2, View.readCov_unit_zero (S := S64x6400) _ hz2]
  simp only [View.readAt_eq_ld, harg2.read_unread, harg3.read_unread, harg4.read_unread, View.ld_unit_zero (S := S64x6400) hz2]
  rfl

/-- A middle point found `acc` and leaves `step acc`. -/
theorem middle_leaves (c : Dev nD) (i : grid0.Coords) (arg2 : Memref sig .tc .vmem S5x64x6400 .f32) (harg2 : arg2.IsWhole) (arg3 : Memref sig .tc .vmem S4x64x6400 .f32) (harg3 : arg3.IsWhole) (arg4 : Memref sig .tc .vmem S64x6400 .i32) (harg4 : arg4.IsWhole) (arg5 : Memref sig .tc .vmem S1x8x128 .f32) (harg5 : arg5.IsWhole) (arg6 : Memref sig .tc .vmem S64x6400 .f32) (harg6 : arg6.IsWhole) (hc0 : ¬cond0_0 i) (hc1 : ¬cond0_1 i) (x0 : Vec F S5x64x6400 .f32) (x1 : Vec F S4x64x6400 .f32) (x2 : Vec F S64x6400 .i32) (acc : Vec F S64x6400 .f32) :
    sout0_B_0 c i arg2 harg2 arg3 harg3 arg4 harg4 arg5 harg5 arg6 harg6 hc0 hc1 x0 x1 x2 acc = step acc x0 x1 x2 := by
  unfold sout0_B_0
  rw [View.read_writes_eq_canon _ _ _ (scover0_B_0 c i arg2 harg2 arg3 harg3 arg4 harg4 arg5 harg5 arg6 harg6 hc0 hc1 x0 x1 x2 acc)]
  unfold kernelRun0_B
  dsimp only
  sl_unfold_words
  rw [View.canon_unit_zero hz2]
  simp only [View.readAt_eq_ld, harg2.read_unread, harg3.read_unread, harg4.read_unread, harg6.read_unread, View.ld_unit_zero (S := S64x6400) hz2]
  rfl

/-- A last point found `acc` and leaves `step acc` in the accumulator, -/
theorem last_leaves (c : Dev nD) (i : grid0.Coords) (arg2 : Memref sig .tc .vmem S5x64x6400 .f32) (harg2 : arg2.IsWhole) (arg3 : Memref sig .tc .vmem S4x64x6400 .f32) (harg3 : arg3.IsWhole) (arg4 : Memref sig .tc .vmem S64x6400 .i32) (harg4 : arg4.IsWhole) (arg5 : Memref sig .tc .vmem S1x8x128 .f32) (harg5 : arg5.IsWhole) (arg6 : Memref sig .tc .vmem S64x6400 .f32) (harg6 : arg6.IsWhole) (hc0 : ¬cond0_0 i) (hc1 : cond0_1 i) (x0 : Vec F S5x64x6400 .f32) (x1 : Vec F S4x64x6400 .f32) (x2 : Vec F S64x6400 .i32) (acc : Vec F S64x6400 .f32) :
    sout0_C_0 c i arg2 harg2 arg3 harg3 arg4 harg4 arg5 harg5 arg6 harg6 hc0 hc1 x0 x1 x2 acc = step acc x0 x1 x2 := by
  unfold sout0_C_0
  rw [View.read_writes_eq_canon _ _ _ (scover0_C_0 c i arg2 harg2 arg3 harg3 arg4 harg4 arg5 harg5 arg6 harg6 hc0 hc1 x0 x1 x2 acc)]
  unfold kernelRun0_C
  dsimp only
  sl_unfold_words
  rw [View.canon_unit_zero hz2]
  simp only [View.readAt_eq_ld, harg2.read_unread, harg3.read_unread, harg4.read_unread, harg6.read_unread, View.ld_unit_zero (S := S64x6400) hz2]
  rfl

/-- and its total, spread, in the output block. -/
theorem last_writes (c : Dev nD) (i : grid0.Coords) (arg2 : Memref sig .tc .vmem S5x64x6400 .f32) (harg2 : arg2.IsWhole) (arg3 : Memref sig .tc .vmem S4x64x6400 .f32) (harg3 : arg3.IsWhole) (arg4 : Memref sig .tc .vmem S64x6400 .i32) (harg4 : arg4.IsWhole) (arg5 : Memref sig .tc .vmem S1x8x128 .f32) (harg5 : arg5.IsWhole) (arg6 : Memref sig .tc .vmem S64x6400 .f32) (harg6 : arg6.IsWhole) (hc0 : ¬cond0_0 i) (hc1 : cond0_1 i) (x0 : Vec F S5x64x6400 .f32) (x1 : Vec F S4x64x6400 .f32) (x2 : Vec F S64x6400 .i32) (acc : Vec F S64x6400 .f32) :
    out0_C_3 c i arg2 harg2 arg3 harg3 arg4 harg4 arg5 harg5 arg6 harg6 hc0 hc1 x0 x1 x2 acc = spreadSum (step acc x0 x1 x2) := by
  unfold out0_C_3
  rw [View.read_writes_eq_canon _ _ _ (cover0_C_3 c i arg2 harg2 arg3 harg3 arg4 harg4 arg5 harg5 arg6 harg6 hc0 hc1 x0 x1 x2 acc)]
  unfold kernelRun0_C
  dsimp only
  sl_unfold_words
  rw [View.canon_unit_zero hz3, View.readCov_unit_zero (S := S64x6400) _ hz2]
  simp only [View.readAt_eq_ld, harg2.read_unread, harg3.read_unread, harg4.read_unread, harg6.read_unread, View.ld_unit_zero (S := S64x6400) hz2]
  rfl

end Cert.KernelIdeal.Acc

end
-- ==== Proof.KernelRun.lean ====
/-
  The accumulator after each grid point, for any float instance.

  The sixteen grid points run in order; point `n` belongs to core `n / 8` and is that core's step `n % 8`. The accumulator
  after point `n` is `step` of the point's three blocks applied to the zero block when `n` is a core's first point, and to
  the accumulator after point `n − 1` otherwise. This closed recursion is what the generated frame's point-by-point
  contents are (by induction on the point, using what each control case leaves), and at a core's last point the output
  block holds the accumulator's total, spread.
-/
import proofs.«100956_j25546465477236_2_alg».proof.Proof.KernelPieces

set_option maxRecDepth 16384

noncomputable section

namespace Cert.KernelIdeal.Acc

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The three blocks point `t` reads: rows `64·t … 64·t + 63` of the channel-major prediction and target arrays and of the
    flattened object array, as the region finds them. -/
abbrev predBlock (c : Dev nD) (t : Fin cfg0.N) : Vec F S5x64x6400 .f32 := iblk m c 0 t
abbrev targBlock (c : Dev nD) (t : Fin cfg0.N) : Vec F S4x64x6400 .f32 := iblk m c 1 t
abbrev objBlock (c : Dev nD) (t : Fin cfg0.N) : Vec F S64x6400 .i32 := iblk m c 2 t

/-- The accumulator after point `n`. -/
def accAfter (c : Dev nD) : (n : ℕ) → n < cfg0.N → Vec F S64x6400 .f32
  | 0, h => step zeroBlock (predBlock m c ⟨0, h⟩) (targBlock m c ⟨0, h⟩) (objBlock m c ⟨0, h⟩)
  | n + 1, h => step (if (n + 1) % 8 = 0 then zeroBlock else accAfter c n (Nat.lt_of_succ_lt h))
      (predBlock m c ⟨n + 1, h⟩) (targBlock m c ⟨n + 1, h⟩) (objBlock m c ⟨n + 1, h⟩)

theorem accAfter_zero (c : Dev nD) (h : 0 < cfg0.N) :
    accAfter m c 0 h = step zeroBlock (predBlock m c ⟨0, h⟩) (targBlock m c ⟨0, h⟩) (objBlock m c ⟨0, h⟩) := rfl

theorem accAfter_succ (c : Dev nD) (n : ℕ) (h : n + 1 < cfg0.N) :
    accAfter m c (n + 1) h = step (if (n + 1) % 8 = 0 then zeroBlock else accAfter m c n (Nat.lt_of_succ_lt h))
      (predBlock m c ⟨n + 1, h⟩) (targBlock m c ⟨n + 1, h⟩) (objBlock m c ⟨n + 1, h⟩) := rfl

set_option maxHeartbeats 4000000 in
/-- The carried accumulator the frame records after point `n` is `accAfter`. -/
theorem carried_eq (c : Dev nD) : ∀ (n : ℕ) (h : n < cfg0.N), (outsAt0 m c n h).2 = accAfter m c n h
  | 0, h => by
    have h0 : (⟨0, h⟩ : Fin cfg0.N).val % 8 = 0 := Nat.zero_mod 8
    have h1 : ¬(⟨0, h⟩ : Fin cfg0.N).val % 8 = 7 := by rw [h0]; decide
    rw [outsAt0_A m c ⟨0, h⟩ h0 h1, accAfter_zero]
    dsimp only
    exact first_leaves c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole cc0_scratch0) ((hcond0_0 ⟨0, h⟩).mpr h0) (fun hh => h1 ((hcond0_1 ⟨0, h⟩).mp hh)) (predBlock m c ⟨0, h⟩) (targBlock m c ⟨0, h⟩) (objBlock m c ⟨0, h⟩)
  | n + 1, h => by
    by_cases h0 : (n + 1) % 8 = 0
    · have h1 : ¬(n + 1) % 8 = 7 := by omega
      rw [outsAt0_A m c ⟨n + 1, h⟩ h0 h1, accAfter_succ, if_pos h0]
      dsimp only
      exact first_leaves c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole cc0_scratch0) ((hcond0_0 ⟨n + 1, h⟩).mpr h0) (fun hh => h1 ((hcond0_1 ⟨n + 1, h⟩).mp hh)) (predBlock m c ⟨n + 1, h⟩) (targBlock m c ⟨n + 1, h⟩) (objBlock m c ⟨n + 1, h⟩)
    · by_cases h1 : (n + 1) % 8 = 7
      · rw [outsAt0_C m c ⟨n + 1, h⟩ h0 h1, accAfter_succ, if_neg h0, ← carried_eq c n]
        dsimp only
        exact last_leaves c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole cc0_scratch0) (fun hh => h0 ((hcond0_0 ⟨n + 1, h⟩).mp hh)) ((hcond0_1 ⟨n + 1, h⟩).mpr h1) (predBlock m c ⟨n + 1, h⟩) (targBlock m c ⟨n + 1, h⟩) (objBlock m c ⟨n + 1, h⟩) (outsAt0 m c n (Nat.lt_of_succ_lt h)).2
      · rw [outsAt0_B m c ⟨n + 1, h⟩ h0 h1, accAfter_succ, if_neg h0, ← carried_eq c n]
        dsimp only
        exact middle_leaves c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole cc0_scratch0) (fun hh => h0 ((hcond0_0 ⟨n + 1, h⟩).mp hh)) (fun hh => h1 ((hcond0_1 ⟨n + 1, h⟩).mp hh)) (predBlock m c ⟨n + 1, h⟩) (targBlock m c ⟨n + 1, h⟩) (objBlock m c ⟨n + 1, h⟩) (outsAt0 m c n (Nat.lt_of_succ_lt h)).2

set_option maxHeartbeats 4000000 in
/-- At a core's last point the output block the frame records is the accumulator's total, spread. -/
theorem written_eq (c : Dev nD) (t : Fin cfg0.N) (h1 : t.val % 8 = 7) :
    (outsAt0 m c t.val t.isLt).1 = spreadSum (accAfter m c t.val t.isLt) := by
  obtain ⟨n, h⟩ := t
  cases n with
  | zero => exact absurd h1 (by show ¬(0 % 8 = 7); decide)
  | succ n =>
    have h1 : (n + 1) % 8 = 7 := h1
    have h0 : ¬(n + 1) % 8 = 0 := by omega
    rw [outsAt0_C m c ⟨n + 1, h⟩ h0 h1]
    show _ = spreadSum (accAfter m c (n + 1) h)
    rw [accAfter_succ, if_neg h0, ← carried_eq m c n]
    dsimp only
    exact last_writes c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole cc0_scratch0) (fun hh => h0 ((hcond0_0 ⟨n + 1, h⟩).mp hh)) ((hcond0_1 ⟨n + 1, h⟩).mpr h1) (predBlock m c ⟨n + 1, h⟩) (targBlock m c ⟨n + 1, h⟩) (objBlock m c ⟨n + 1, h⟩) (outsAt0 m c n (Nat.lt_of_succ_lt h)).2

end Cert.KernelIdeal.Acc

end
-- ==== Proof.LibWidenedBit.lean ====
/-
  A comparison bit turned into a float two ways.

  A one-bit word is 0 or 1. Widened to 32 bits with zeros and read as a SIGNED integer it is still 0 or 1 (the sign bit
  of the wide word is clear), which is the bit read UNSIGNED. On the extended reals an integer-to-float conversion is
  the integer itself, so the two conversions agree for every float format, entry by entry and for whole arrays.
-/
import Idealize.ShloMosaic.PureOps.Ideal
import Idealize.ShloMosaic.Lib.ValueIdx

noncomputable section

namespace Cert.LibWidenedBit

open Idealize.ShloMosaic

/-- A one-bit word widened to 32 bits with zeros is the same integer read signed as the bit read unsigned. -/
theorem toInt_widen_bit : ∀ c : BitVec 1, (c.setWidth 32).toInt = (c.toNat : ℤ) := by decide

/-- On the extended reals, for any float format: the signed reading of a bit widened to 32 bits is the unsigned reading
    of the bit. -/
theorem sitofp_widen_bit (φ : FTy) (c : BitVec 1) :
    FloatOps.sitofp (F := Ideal) φ (c.setWidth 32) = FloatOps.uitofp (F := Ideal) φ c := by
  show ((((c.setWidth 32).toInt : ℤ) : ℝ) : EReal) = (((c.toNat : ℕ) : ℝ) : EReal)
  rw [toInt_widen_bit, Int.cast_natCast]

/-- The same for a whole array of bits of any shape: widening every bit to 32 bits and converting signed is converting
    the bits unsigned. -/
theorem sitofp_extui_bit {s : Shape} (φ : FTy) (x : IVec s 1) (h : 1 < 32) :
    (sitofp φ (extui 32 x h) : FVec Ideal s φ) = uitofp φ x :=
  funext fun i => sitofp_widen_bit φ (x i)

end Cert.LibWidenedBit

end
-- ==== Proof.LibNonnegScale.lean ====
/-
  Facts about the extended reals that let a degree normalisation be moved across a sum.

  * Multiplying by a NONNEGATIVE REAL distributes over every finite sum of extended reals, whatever the summands are
    (infinite ones included): `(∑ f) * r = ∑ (f * r)`. (For a general factor this fails: `(⊤ + ⊥) * (-1)`.)
  * Hence a host scatter-add (each element plus the sum of the updates that land on it) from a zero operand, scaled by a
    nonnegative real after the sum, is the scatter-add of the updates scaled before it.
  * The inverse square root guarded by a positivity test, `if 0 < z then 1/√z else 0`, is a nonnegative real for EVERY
    extended real `z`: at `⊤` the inverse square root is `0`, at a positive real it is a positive real, and everywhere
    else the guard gives `0`.
-/
import Idealize.ShloMosaic.PureOps.Ideal
import Idealize.ShloMosaic.Lib.ValueIdx

noncomputable section

open Idealize.ShloMosaic

namespace Cert.Lib.NonnegScale

/-- A nonnegative real factor distributes over the sum of two extended reals. -/
theorem add_mul_coe {r : ℝ} (hr : 0 ≤ r) (y z : EReal) : (y + z) * (r : EReal) = y * (r : EReal) + z * (r : EReal) :=
  EReal.right_distrib_of_nonneg_of_ne_top (by exact_mod_cast hr) (EReal.coe_ne_top r) y z

/-- A nonnegative real factor distributes over a finite sum of extended reals. -/
theorem sum_mul_coe {ι : Type*} (s : Finset ι) (f : ι → EReal) {r : ℝ} (hr : 0 ≤ r) :
    (∑ j ∈ s, f j) * (r : EReal) = ∑ j ∈ s, f j * (r : EReal) := by
  classical
  induction s using Finset.induction_on with
  | empty => simp
  | insert a s ha ih => rw [Finset.sum_insert ha, Finset.sum_insert ha, add_mul_coe hr, ih]

/-- A host scatter-add from a zero operand, scaled by a nonnegative real AFTER the sum, is the scatter-add of updates
    scaled BEFORE it: it is enough that each update landing on the element, times the factor, is the other update. -/
theorem scatterAdd_mul_coe {s si su : Shape} (sd : ScatterDims s si su) {w : Nat} (z : s.Idx → EReal) (idx : IVec si w)
    (u u' : su.Idx → EReal) (i : s.Idx) {r : ℝ} (hr : 0 ≤ r) (hz : z i = 0)
    (h : ∀ j, sd.resultIdx? j idx = some i → u j * (r : EReal) = u' j) :
    Ideal.hostScatterAdd sd z idx u i * (r : EReal) = Ideal.hostScatterAdd sd z idx u' i := by
  unfold Ideal.hostScatterAdd
  rw [hz, zero_add, zero_add, sum_mul_coe _ _ hr]
  exact Finset.sum_congr rfl fun j hj => h j (Finset.mem_filter.mp hj).2

/-- The guarded inverse square root `if 0 < z then 1/√z else 0`, as a host program spells it (a comparison word, the
    inverse square root, a select against zero), is a nonnegative real at every extended real `z`. -/
theorem guarded_rsqrt_nonneg_real (z : EReal) :
    ∃ r : ℝ, 0 ≤ r ∧ Scalar.select (Ideal.cmp .ogt z 0) (Ideal.rsqrt z) (0 : EReal) = (r : EReal) := by
  induction z using EReal.rec with
  | bot =>
    refine ⟨0, le_refl _, ?_⟩
    have : Ideal.cmp .ogt (⊥ : EReal) 0 = 0#1 := by simp [Ideal.cmp]
    rw [this, ValueIdx.select_zero]; rfl
  | top =>
    refine ⟨0, le_refl _, ?_⟩
    have : Ideal.cmp .ogt (⊤ : EReal) 0 = 1#1 := by simp [Ideal.cmp]
    rw [this, ValueIdx.select_one, Ideal.rsqrt_top]; rfl
  | coe x =>
    by_cases hx : 0 < x
    · refine ⟨(Real.sqrt x)⁻¹, inv_nonneg.mpr (Real.sqrt_nonneg x), ?_⟩
      have : Ideal.cmp .ogt (x : EReal) 0 = 1#1 := by
        simp only [Ideal.cmp]
        rw [decide_eq_true (by exact_mod_cast hx)]; rfl
      rw [this, ValueIdx.select_one, Ideal.rsqrt_coe, if_neg (not_lt.mpr hx.le), if_neg hx.ne']
    · refine ⟨0, le_refl _, ?_⟩
      have : Ideal.cmp .ogt (x : EReal) 0 = 0#1 := by
        simp only [Ideal.cmp]
        rw [decide_eq_false (by exact_mod_cast hx)]; rfl
      rw [this, ValueIdx.select_zero]; rfl

end Cert.Lib.NonnegScale

end
-- ==== Proof.CellLoss.lean ====
/-
  The per-cell detection loss both programs compute, written once over any float instance, and the law that joins the
  two ways of totalling it.

  A cell carries a predicted box (px, py, pw, ph) with a confidence pc, a target box (tx, ty, tw, th) and an object word.
  Its mask `m` is 1 when the object word is positive (read signed) and 0 otherwise. From the two boxes' widths and heights
  an overlap ratio `iou` is formed (both boxes centred at width/80). The cell's four terms are
    xy    = (px − tx)² + (py − ty)²,        wh    = (√pw − √tw)² + (√ph − √th)²,
    obj   = (pc − iou)²,                    noobj = pc².
  One program adds, cell by cell,  (5·m)·(xy + wh) + m·obj + (½·(1 − m))·noobj  and totals that; the other totals
  m·xy, m·wh, m·obj and (1 − m)·noobj separately and forms  5·(Σ m·xy + Σ m·wh) + Σ m·obj + ½·Σ (1 − m)·noobj.
  On the extended reals the two agree for EVERY value of the terms, infinite ones included: products re-associate, a mask
  that is 0 or 1 distributes over a sum (0·z = 0, 1·z = z), and the nonnegative real factors 5 and ½ distribute over any
  finite sum. No finiteness of the inputs is used.
-/
import Idealize.ShloMosaic.PureOps.Ideal
import Idealize.ShloMosaic.Lib.ValueIdx
import proofs.«100956_j25546465477236_2_alg».proof.Proof.LibWidenedBit
import proofs.«100956_j25546465477236_2_alg».proof.Proof.LibNonnegScale

noncomputable section

namespace Cert.CellLoss

open Idealize.ShloMosaic

variable {F : FTy → Type} [FloatOps F]

/-- `(a − b)²`, the difference formed once and multiplied by itself. -/
def sqDiff (a b : F .f32) : F .f32 := FloatOps.mulf (FloatOps.subf a b) (FloatOps.subf a b)

/-- The overlap ratio of the two boxes: each box spans `w/80 ∓ w/2` horizontally and `w/80 ∓ h/2` vertically; the
    overlap's sides are clipped at zero; the ratio is overlap / (pw·ph + tw·th − overlap). -/
def iou (pw ph tw th : F .f32) : F .f32 :=
  FloatOps.divf
    (FloatOps.mulf
      (FloatOps.maximumf (FloatOps.subf
        (FloatOps.minimumf
          (FloatOps.addf (FloatOps.divf pw (FloatOps.ofBits .f32 0x42A00000#32)) (FloatOps.mulf (FloatOps.ofBits .f32 0x3F000000#32) pw))
          (FloatOps.addf (FloatOps.divf tw (FloatOps.ofBits .f32 0x42A00000#32)) (FloatOps.mulf (FloatOps.ofBits .f32 0x3F000000#32) tw)))
        (FloatOps.maximumf
          (FloatOps.subf (FloatOps.divf pw (FloatOps.ofBits .f32 0x42A00000#32)) (FloatOps.mulf (FloatOps.ofBits .f32 0x3F000000#32) pw))
          (FloatOps.subf (FloatOps.divf tw (FloatOps.ofBits .f32 0x42A00000#32)) (FloatOps.mulf (FloatOps.ofBits .f32 0x3F000000#32) tw))))
        (FloatOps.ofBits .f32 0x00000000#32))
      (FloatOps.maximumf (FloatOps.subf
        (FloatOps.minimumf
          (FloatOps.addf (FloatOps.divf pw (FloatOps.ofBits .f32 0x42A00000#32)) (FloatOps.mulf (FloatOps.ofBits .f32 0x3F000000#32) ph))
          (FloatOps.addf (FloatOps.divf tw (FloatOps.ofBits .f32 0x42A00000#32)) (FloatOps.mulf (FloatOps.ofBits .f32 0x3F000000#32) th)))
        (FloatOps.maximumf
          (FloatOps.subf (FloatOps.divf pw (FloatOps.ofBits .f32 0x42A00000#32)) (FloatOps.mulf (FloatOps.ofBits .f32 0x3F000000#32) ph))
          (FloatOps.subf (FloatOps.divf tw (FloatOps.ofBits .f32 0x42A00000#32)) (FloatOps.mulf (FloatOps.ofBits .f32 0x3F000000#32) th))))
        (FloatOps.ofBits .f32 0x00000000#32)))
    (FloatOps.subf (FloatOps.addf (FloatOps.mulf pw ph) (FloatOps.mulf tw th))
      (FloatOps.mulf
        (FloatOps.maximumf (FloatOps.subf
          (FloatOps.minimumf
            (FloatOps.addf (FloatOps.divf pw (FloatOps.ofBits .f32 0x42A00000#32)) (FloatOps.mulf (FloatOps.ofBits .f32 0x3F000000#32) pw))
            (FloatOps.addf (FloatOps.divf tw (FloatOps.ofBits .f32 0x42A00000#32)) (FloatOps.mulf (FloatOps.ofBits .f32 0x3F000000#32) tw)))
          (FloatOps.maximumf
            (FloatOps.subf (FloatOps.divf pw (FloatOps.ofBits .f32 0x42A00000#32)) (FloatOps.mulf (FloatOps.ofBits .f32 0x3F000000#32) pw))
            (FloatOps.subf (FloatOps.divf tw (FloatOps.ofBits .f32 0x42A00000#32)) (FloatOps.mulf (FloatOps.ofBits .f32 0x3F000000#32) tw))))
          (FloatOps.ofBits .f32 0x00000000#32))
        (FloatOps.maximumf (FloatOps.subf
          (FloatOps.minimumf
            (FloatOps.addf (FloatOps.divf pw (FloatOps.ofBits .f32 0x42A00000#32)) (FloatOps.mulf (FloatOps.ofBits .f32 0x3F000000#32) ph))
            (FloatOps.addf (FloatOps.divf tw (FloatOps.ofBits .f32 0x42A00000#32)) (FloatOps.mulf (FloatOps.ofBits .f32 0x3F000000#32) th)))
          (FloatOps.maximumf
            (FloatOps.subf (FloatOps.divf pw (FloatOps.ofBits .f32 0x42A00000#32)) (FloatOps.mulf (FloatOps.ofBits .f32 0x3F000000#32) ph))
            (FloatOps.subf (FloatOps.divf tw (FloatOps.ofBits .f32 0x42A00000#32)) (FloatOps.mulf (FloatOps.ofBits .f32 0x3F000000#32) th))))
          (FloatOps.ofBits .f32 0x00000000#32))))

/-- The position term `(px − tx)² + (py − ty)²`. -/
def xyTerm (px py tx ty : F .f32) : F .f32 := FloatOps.addf (sqDiff px tx) (sqDiff py ty)
/-- The size term `(√pw − √tw)² + (√ph − √th)²`. -/
def whTerm (pw ph tw th : F .f32) : F .f32 :=
  FloatOps.addf (sqDiff (FloatOps.sqrt pw) (FloatOps.sqrt tw)) (sqDiff (FloatOps.sqrt ph) (FloatOps.sqrt th))
/-- The confidence term of a cell with an object, `(pc − iou)²`. -/
def objTerm (pc pw ph tw th : F .f32) : F .f32 := sqDiff pc (iou pw ph tw th)
/-- The confidence term of a cell without one, `pc²`. -/
def noobjTerm (pc : F .f32) : F .f32 := FloatOps.mulf pc pc

/-- The weights 5, 1 and ½ as the programs spell them. -/
abbrev five : F .f32 := FloatOps.ofBits .f32 0x40A00000#32
abbrev one : F .f32 := FloatOps.ofBits .f32 0x3F800000#32
abbrev half : F .f32 := FloatOps.ofBits .f32 0x3F000000#32

/-- One cell's contribution as the accumulating program forms it: `(5·m)·(xy + wh) + m·obj + (½·(1 − m))·noobj`. -/
def cell (m px py pw ph pc tx ty tw th : F .f32) : F .f32 :=
  FloatOps.addf
    (FloatOps.addf
      (FloatOps.mulf (FloatOps.mulf five m) (FloatOps.addf (xyTerm px py tx ty) (whTerm pw ph tw th)))
      (FloatOps.mulf m (objTerm pc pw ph tw th)))
    (FloatOps.mulf (FloatOps.mulf half (FloatOps.subf one m)) (noobjTerm pc))

/-- The same contribution with the first squared difference `sx = (px − tx)²` and the overlap ratio `u` given. -/
def cellCore (m sx py ty pw ph tw th pc u : F .f32) : F .f32 :=
  FloatOps.addf
    (FloatOps.addf
      (FloatOps.mulf (FloatOps.mulf five m) (FloatOps.addf (FloatOps.addf sx (sqDiff py ty)) (whTerm pw ph tw th)))
      (FloatOps.mulf m (sqDiff pc u)))
    (FloatOps.mulf (FloatOps.mulf half (FloatOps.subf one m)) (FloatOps.mulf pc pc))

theorem cell_eq_core (m px py pw ph pc tx ty tw th : F .f32) :
    cell m px py pw ph pc tx ty tw th = cellCore m (sqDiff px tx) py ty pw ph tw th pc (iou pw ph tw th) := rfl

/-- The mask of an object word, from the comparison bit widened to 32 bits and converted signed; -/
def maskWide (b : BitVec 32) : F .f32 := FloatOps.sitofp .f32 ((IntOp.cmpi .sgt b 0#32).setWidth 32)
/-- and from the comparison bit converted unsigned. -/
def mask (b : BitVec 32) : F .f32 := FloatOps.uitofp .f32 (IntOp.cmpi .sgt b 0#32)

/-! ## On the extended reals -/

/-- The two spellings of the mask are one number. -/
theorem maskWide_eq (b : BitVec 32) : maskWide (F := Ideal) b = mask b :=
  Cert.LibWidenedBit.sitofp_widen_bit .f32 _

/-- A mask is 0 or 1. -/
theorem mask_cases (b : BitVec 32) : mask (F := Ideal) b = 0 ∨ mask (F := Ideal) b = 1 := by
  unfold mask
  rcases (by decide : ∀ c : BitVec 1, c = 0#1 ∨ c = 1#1) (IntOp.cmpi .sgt b 0#32) with h | h
  · left; rw [h]; show ((((0#1 : BitVec 1).toNat : ℕ) : ℝ) : EReal) = 0; norm_num
  · right; rw [h]; show ((((1#1 : BitVec 1).toNat : ℕ) : ℝ) : EReal) = 1; norm_num

/-- The word of 5 denotes the real 5, -/
theorem five_eq : (five : Ideal .f32) = ((5 : ℝ) : EReal) := by
  show Ideal.ofBits .f32 0x40A00000#32 = _
  simp [Ideal.ofBits, Ideal.ieee, -EReal.coe_mul]; norm_num
/-- and the word of ½ the real ½. -/
theorem half_eq : (half : Ideal .f32) = ((1 / 2 : ℝ) : EReal) := by
  show Ideal.ofBits .f32 0x3F000000#32 = _
  simp [Ideal.ofBits, Ideal.ieee, -EReal.coe_mul]; norm_num

/-- A mask distributes over a sum of any two extended reals. -/
theorem mask_mul_add {μ : EReal} (hμ : μ = 0 ∨ μ = 1) (a b : EReal) : μ * (a + b) = μ * a + μ * b := by
  rcases hμ with h | h <;> subst h <;> simp

/-- A nonnegative real factor on the left distributes over a finite sum of extended reals. -/
theorem coe_mul_sum {ι : Type*} (s : Finset ι) (f : ι → EReal) {r : ℝ} (hr : 0 ≤ r) :
    (r : EReal) * ∑ j ∈ s, f j = ∑ j ∈ s, (r : EReal) * f j := by
  rw [mul_comm, Cert.Lib.NonnegScale.sum_mul_coe s f hr]
  exact Finset.sum_congr rfl fun j _ => mul_comm _ _

/-- One cell, regrouped: `5·(m·xy + m·wh) + m·obj + ½·((1 − m)·noobj)`. -/
theorem cell_regroup {μ : EReal} (hμ : μ = 0 ∨ μ = 1) (px py pw ph pc tx ty tw th : Ideal .f32) :
    cell (F := Ideal) μ px py pw ph pc tx ty tw th
      = ((five : Ideal .f32) * (μ * xyTerm (F := Ideal) px py tx ty + μ * whTerm (F := Ideal) pw ph tw th)
          + μ * objTerm (F := Ideal) pc pw ph tw th)
        + (half : Ideal .f32) * (((one : Ideal .f32) - μ) * noobjTerm (F := Ideal) pc) := by
  show ((five : Ideal .f32) * μ) * (xyTerm (F := Ideal) px py tx ty + whTerm (F := Ideal) pw ph tw th)
        + μ * objTerm (F := Ideal) pc pw ph tw th
        + ((half : Ideal .f32) * ((one : Ideal .f32) - μ)) * noobjTerm (F := Ideal) pc = _
  rw [mul_assoc, mul_assoc, mask_mul_add hμ]

/-- THE LAW. Over any finite set of cells: the total of the cells' contributions is
    `5·(Σ m·xy + Σ m·wh) + Σ m·obj + ½·Σ (1 − m)·noobj`. -/
theorem total_regroup {ι : Type*} (s : Finset ι) (μ xy wh ob nb : ι → EReal) (hμ : ∀ j, μ j = 0 ∨ μ j = 1) :
    ∑ j ∈ s, (((five : Ideal .f32) * (μ j * xy j + μ j * wh j) + μ j * ob j)
        + (half : Ideal .f32) * (((one : Ideal .f32) - μ j) * nb j))
      = ((five : Ideal .f32) * (∑ j ∈ s, μ j * xy j + ∑ j ∈ s, μ j * wh j) + ∑ j ∈ s, μ j * ob j)
        + (half : Ideal .f32) * ∑ j ∈ s, ((one : Ideal .f32) - μ j) * nb j := by
  rw [Finset.sum_add_distrib, Finset.sum_add_distrib, ← Finset.sum_add_distrib (f := fun j => μ j * xy j)]
  rw [five_eq, half_eq, coe_mul_sum s _ (by norm_num : (0 : ℝ) ≤ 5), coe_mul_sum s _ (by norm_num : (0 : ℝ) ≤ 1 / 2)]

end Cert.CellLoss

end
-- ==== Proof.LibSlab.lean ====
/-
  General lemmas about ONE slab of a stacked array, as a kernel reads it: a load of the `[1, a, b]` (or `[1, n]`) slab at
  leading offset `l` out of a `[L, a, b]` (or `[L, n]`) buffer's contents, cast to `[a, b]` (or `[n]`), reads at `(k, g)`
  (at `k`) the contents at `(l, k, g)` (at `(l, k)`). At any extents and for any element type.
-/
import Idealize.ShloMosaic.Lib.Pipeline.Value
import Idealize.ShloMosaic.Lib.ValueIdx
import Idealize.ShloMosaic.Lib.ValueLayout

namespace Cert.Slab

open Idealize.ShloMosaic Idealize.ShloMosaic.ValueIdx

variable {Val : EltTy → Type} {e : EltTy}

/-- Slab `l` of `[L, a, b]`, as a matrix. -/
theorem slab3_apply {L a b : ℕ} (x : (⟨3, ![L, a, b]⟩ : Shape).Idx → Val e) (l : ℕ) (hl : l < L)
    (inb : ∀ ax, (![l, 0, 0] : Fin 3 → ℕ) ax + (![1, a, b] : Fin 3 → ℕ) ax ≤ (⟨3, ![L, a, b]⟩ : Shape).size ax)
    (h : (⟨3, ![1, a, b]⟩ : Shape).ShapeCasts ⟨2, ![a, b]⟩) (k : Fin a) (g : Fin b) :
    shapeCast ⟨2, ![a, b]⟩ (View.ld x (Rect.unit (s := ⟨3, ![L, a, b]⟩) ![l, 0, 0] ![1, a, b] inb)) h (ix2 k g)
      = x (ix3 ⟨l, hl⟩ k g) := by
  refine (shapeCast_1ab_ab_apply _ h k g).trans ?_
  show x ((Rect.unit (s := ⟨3, ![L, a, b]⟩) ![l, 0, 0] ![1, a, b] inb).idx (ix3 (0 : Fin 1) k g)) = _
  refine congrArg x (funext fun ax => Fin.ext ?_)
  match ax with
  | ⟨0, _⟩ => show l + 1 * 0 = l; omega
  | ⟨1, _⟩ => show 0 + 1 * k.val = k.val; omega
  | ⟨2, _⟩ => show 0 + 1 * g.val = g.val; omega

/-- Row `l` of `[L, n]`, as a vector. -/
theorem slab2_apply {L n : ℕ} (x : (⟨2, ![L, n]⟩ : Shape).Idx → Val e) (l : ℕ) (hl : l < L)
    (inb : ∀ ax, (![l, 0] : Fin 2 → ℕ) ax + (![1, n] : Fin 2 → ℕ) ax ≤ (⟨2, ![L, n]⟩ : Shape).size ax)
    (h : (⟨2, ![1, n]⟩ : Shape).ShapeCasts ⟨1, ![n]⟩) (k : Fin n) :
    shapeCast ⟨1, ![n]⟩ (View.ld x (Rect.unit (s := ⟨2, ![L, n]⟩) ![l, 0] ![1, n] inb)) h (ix1 k)
      = x (ix2 ⟨l, hl⟩ k) := by
  refine (shapeCast_1a_a_apply _ h k).trans ?_
  show x ((Rect.unit (s := ⟨2, ![L, n]⟩) ![l, 0] ![1, n] inb).idx (ix2 (0 : Fin 1) k)) = _
  refine congrArg x (funext fun ax => Fin.ext ?_)
  match ax with
  | ⟨0, _⟩ => show l + 1 * 0 = l; omega
  | ⟨1, _⟩ => show 0 + 1 * k.val = k.val; omega

end Cert.Slab
-- ==== Proof.LibGridSum.lean ====
/-
  Sums over an array's whole index set do not see how the array is laid out or cut into blocks of rows.
  Stated in any commutative additive monoid, so they hold of the extended reals, where sums need no finiteness.

  • `sum_shapeCast`, `sum_shapeCast₂`: a reshape only renames the indices, so a sum over every index of a function of the
    reshaped array's entries (of two arrays reshaped alike) is the sum over every index of the arrays themselves.
  • `blockRow`, `sum_rowBlocks`: an array of N = T·R rows cut into T blocks of R consecutive rows — the sum over the blocks
    of the sums over a block is the sum over the array.
  • `sum_fin_succ_last`: a sum over the first n + 1 naturals' `Fin` type splits off its last term (the step of a running
    total kept across the points of a grid).
-/
import Mathlib.Algebra.BigOperators.Fin
import Mathlib.Algebra.BigOperators.Intervals
import Idealize.ShloMosaic.Lib.ValueIdx
import Idealize.ShloMosaic.PureOps.ShapeOps

namespace Cert.GridSum

open Idealize.ShloMosaic Idealize.ShloMosaic.ValueIdx

variable {M : Type*} [AddCommMonoid M]

/-- A sum over every index of a function of a reshaped array's entries is the sum over the array's own indices. -/
theorem sum_shapeCast {α : Type} {s t : Shape} (x : s.Idx → α) (h : s.ShapeCasts t) (g : α → M) :
    ∑ j : t.Idx, g (shapeCast t x h j) = ∑ i : s.Idx, g (x i) :=
  Equiv.sum_comp (Shape.reshapeEquiv h) fun i => g (x i)

/-- The same for a function of two arrays reshaped alike. -/
theorem sum_shapeCast₂ {α β : Type} {s t : Shape} (x : s.Idx → α) (y : s.Idx → β) (h : s.ShapeCasts t) (g : α → β → M) :
    ∑ j : t.Idx, g (shapeCast t x h j) (shapeCast t y h j) = ∑ i : s.Idx, g (x i) (y i) :=
  Equiv.sum_comp (Shape.reshapeEquiv h) fun i => g (x i) (y i)

/-- Two places `u·R + p`, `u'·R + p'` with `p, p' < R` coincide only if the blocks and the places within them do. -/
theorem block_unique {R a b p q : ℕ} (hp : p < R) (hq : q < R) (h : a * R + p = b * R + q) : a = b ∧ p = q := by
  have hR : 0 < R := by omega
  have ha : (a * R + p) / R = a := by rw [Nat.mul_comm, Nat.mul_add_div hR, Nat.div_eq_of_lt hp, Nat.add_zero]
  have hb : (b * R + q) / R = b := by rw [Nat.mul_comm, Nat.mul_add_div hR, Nat.div_eq_of_lt hq, Nat.add_zero]
  have hab : a = b := by rw [← ha, h, hb]
  subst hab
  exact ⟨rfl, by omega⟩

theorem block_bound {T R N : ℕ} (hN : T * R = N) {u p : ℕ} (hu : u < T) (hp : p < R) : u * R + p < N := by
  subst hN
  calc u * R + p < u * R + R := by omega
    _ = (u + 1) * R := by rw [Nat.succ_mul]
    _ ≤ T * R := Nat.mul_le_mul_right R hu

/-- Entry `(r, k)` of block `u` of an array of `T·R` rows cut into blocks of `R` rows: entry `(u·R + r, k)` of the array. -/
def blockRow {T R C N : ℕ} (hN : T * R = N) (u : Fin T) (y : (⟨2, ![R, C]⟩ : Shape).Idx) : (⟨2, ![N, C]⟩ : Shape).Idx :=
  ix2 ⟨u.val * R + (y 0).val, block_bound hN u.isLt (idx2_lt0 y)⟩ (y 1)

theorem blockRow_val0 {T R C N : ℕ} (hN : T * R = N) (u : Fin T) (y : (⟨2, ![R, C]⟩ : Shape).Idx) :
    (blockRow hN u y 0).val = u.val * R + (y 0).val := rfl
theorem blockRow_val1 {T R C N : ℕ} (hN : T * R = N) (u : Fin T) (y : (⟨2, ![R, C]⟩ : Shape).Idx) :
    (blockRow hN u y 1).val = (y 1).val := rfl

/-- The blocks tile the array: every entry of the array is entry `(r, k)` of exactly one block. -/
theorem blockRow_bijective {T R C N : ℕ} (hN : T * R = N) :
    Function.Bijective fun p : Fin T × (⟨2, ![R, C]⟩ : Shape).Idx => blockRow (C := C) hN p.1 p.2 := by
  constructor
  · rintro ⟨u, y⟩ ⟨u', y'⟩ h
    have e0 : u.val * R + (y 0).val = u'.val * R + (y' 0).val := congrArg (fun i : (⟨2, ![N, C]⟩ : Shape).Idx => (i 0).val) h
    have e1 : (y 1).val = (y' 1).val := congrArg (fun i : (⟨2, ![N, C]⟩ : Shape).Idx => (i 1).val) h
    obtain ⟨hu, h0⟩ := block_unique (idx2_lt0 y) (idx2_lt0 y') e0
    have hy : y = y' := by
      rw [eq_ix2 y, eq_ix2 y']
      exact congrArg₂ ix2 (Fin.ext h0) (Fin.ext e1)
    exact Prod.ext (Fin.ext hu) hy
  · intro i
    have hi : (i 0).val < N := idx2_lt0 i
    have hR : 0 < R := by
      rcases Nat.eq_zero_or_pos R with h | h
      · subst h; subst hN; simp at hi
      · exact h
    have hq : (i 0).val / R < T := Nat.div_lt_of_lt_mul (by rw [Nat.mul_comm, hN]; exact hi)
    refine ⟨(⟨(i 0).val / R, hq⟩, ix2 ⟨(i 0).val % R, Nat.mod_lt _ hR⟩ (i 1)), ?_⟩
    funext a
    match a with
    | ⟨0, _⟩ => exact Fin.ext (show (i 0).val / R * R + (i 0).val % R = (i 0).val from Nat.div_add_mod' _ _)
    | ⟨1, _⟩ => rfl

/-- The sum over the blocks of the sums over a block is the sum over the array. -/
theorem sum_rowBlocks {T R C N : ℕ} (hN : T * R = N) (f : (⟨2, ![N, C]⟩ : Shape).Idx → M) :
    ∑ u : Fin T, ∑ y : (⟨2, ![R, C]⟩ : Shape).Idx, f (blockRow hN u y) = ∑ i : (⟨2, ![N, C]⟩ : Shape).Idx, f i := by
  rw [← Fintype.sum_prod_type']
  exact Fintype.sum_bijective _ (blockRow_bijective hN) _ _ fun _ => rfl

/-- A sum over `Fin (n + 2)` is the sum over its first `n + 1` indices plus the last term. -/
theorem sum_fin_succ_last (n : ℕ) (f : Fin (n + 2) → M) :
    ∑ u : Fin (n + 2), f u = ∑ u : Fin (n + 1), f ⟨u.val, by omega⟩ + f ⟨n + 1, by omega⟩ := by
  rw [Fin.sum_univ_castSucc]
  rfl

end Cert.GridSum
-- ==== Proof.KernelCell.lean ====
/-
  One grid point's step, read entry by entry on the extended reals.

  Entry (r, l) of the accumulator after a step is the entry found there plus the contribution of the cell whose nine box
  numbers are entry (r, l) of the nine channel slabs of the point's blocks and whose object word is entry (r, l) of the
  point's object block.
-/
import proofs.«100956_j25546465477236_2_alg».proof.Proof.KernelPieces
import proofs.«100956_j25546465477236_2_alg».proof.Proof.CellLoss
import proofs.«100956_j25546465477236_2_alg».proof.Proof.LibSlab
import proofs.«100956_j25546465477236_2_alg».proof.Proof.LibGridSum
import Idealize.ShloMosaic.PureOps.Ideal.Laws

set_option maxRecDepth 16384

noncomputable section

namespace Cert.KernelIdeal.Acc

open Cert.KernelIdeal Cert.KernelIdeal.Gen Cert.CellLoss
open Idealize.ShloMosaic Idealize.ShloMosaic.ValueIdx Idealize.ShloMosaic.TcCoe Idealize.SL.Sem

section slabs
variable {F : FTy → Type} [FloatOps F]

/-! Each channel slab of a block, cast to a matrix, reads the block at that channel. -/
theorem pred0 (x0 : Vec F S5x64x6400 .f32) (r : Fin 64) (l : Fin 6400) :
    k0_pay4 (View.ld x0 (Rect.unit ![0, 0, 0] ![1, 64, 6400] inb_S5x64x6400_S1x64x6400_0_0_0)) (ix2 r l) = x0 (ix3 0 r l) :=
  Cert.Slab.slab3_apply (Val := Elt F) x0 0 (by decide) inb_S5x64x6400_S1x64x6400_0_0_0 shapeCasts_S1x64x6400_S64x6400 r l

theorem pred1 (x0 : Vec F S5x64x6400 .f32) (r : Fin 64) (l : Fin 6400) :
    k0_pay5 (View.ld x0 (Rect.unit ![1, 0, 0] ![1, 64, 6400] inb_S5x64x6400_S1x64x6400_1_0_0)) (ix2 r l) = x0 (ix3 1 r l) :=
  Cert.Slab.slab3_apply (Val := Elt F) x0 1 (by decide) inb_S5x64x6400_S1x64x6400_1_0_0 shapeCasts_S1x64x6400_S64x6400 r l

theorem pred2 (x0 : Vec F S5x64x6400 .f32) (r : Fin 64) (l : Fin 6400) :
    k0_pay6 (View.ld x0 (Rect.unit ![2, 0, 0] ![1, 64, 6400] inb_S5x64x6400_S1x64x6400_2_0_0)) (ix2 r l) = x0 (ix3 2 r l) :=
  Cert.Slab.slab3_apply (Val := Elt F) x0 2 (by decide) inb_S5x64x6400_S1x64x6400_2_0_0 shapeCasts_S1x64x6400_S64x6400 r l

theorem pred3 (x0 : Vec F S5x64x6400 .f32) (r : Fin 64) (l : Fin 6400) :
    k0_pay7 (View.ld x0 (Rect.unit ![3, 0, 0] ![1, 64, 6400] inb_S5x64x6400_S1x64x6400_3_0_0)) (ix2 r l) = x0 (ix3 3 r l) :=
  Cert.Slab.slab3_apply (Val := Elt F) x0 3 (by decide) inb_S5x64x6400_S1x64x6400_3_0_0 shapeCasts_S1x64x6400_S64x6400 r l

theorem pred4 (x0 : Vec F S5x64x6400 .f32) (r : Fin 64) (l : Fin 6400) :
    k0_pay8 (View.ld x0 (Rect.unit ![4, 0, 0] ![1, 64, 6400] inb_S5x64x6400_S1x64x6400_4_0_0)) (ix2 r l) = x0 (ix3 4 r l) :=
  Cert.Slab.slab3_apply (Val := Elt F) x0 4 (by decide) inb_S5x64x6400_S1x64x6400_4_0_0 shapeCasts_S1x64x6400_S64x6400 r l

theorem targ0 (x1 : Vec F S4x64x6400 .f32) (r : Fin 64) (l : Fin 6400) :
    k0_pay9 (View.ld x1 (Rect.unit ![0, 0, 0] ![1, 64, 6400] inb_S4x64x6400_S1x64x6400_0_0_0)) (ix2 r l) = x1 (ix3 0 r l) :=
  Cert.Slab.slab3_apply (Val := Elt F) x1 0 (by decide) inb_S4x64x6400_S1x64x6400_0_0_0 shapeCasts_S1x64x6400_S64x6400 r l

theorem targ1 (x1 : Vec F S4x64x6400 .f32) (r : Fin 64) (l : Fin 6400) :
    k0_pay10 (View.ld x1 (Rect.unit ![1, 0, 0] ![1, 64, 6400] inb_S4x64x6400_S1x64x6400_1_0_0)) (ix2 r l) = x1 (ix3 1 r l) :=
  Cert.Slab.slab3_apply (Val := Elt F) x1 1 (by decide) inb_S4x64x6400_S1x64x6400_1_0_0 shapeCasts_S1x64x6400_S64x6400 r l

theorem targ2 (x1 : Vec F S4x64x6400 .f32) (r : Fin 64) (l : Fin 6400) :
    k0_pay11 (View.ld x1 (Rect.unit ![2, 0, 0] ![1, 64, 6400] inb_S4x64x6400_S1x64x6400_2_0_0)) (ix2 r l) = x1 (ix3 2 r l) :=
  Cert.Slab.slab3_apply (Val := Elt F) x1 2 (by decide) inb_S4x64x6400_S1x64x6400_2_0_0 shapeCasts_S1x64x6400_S64x6400 r l

theorem targ3 (x1 : Vec F S4x64x6400 .f32) (r : Fin 64) (l : Fin 6400) :
    k0_pay12 (View.ld x1 (Rect.unit ![3, 0, 0] ![1, 64, 6400] inb_S4x64x6400_S1x64x6400_3_0_0)) (ix2 r l) = x1 (ix3 3 r l) :=
  Cert.Slab.slab3_apply (Val := Elt F) x1 3 (by decide) inb_S4x64x6400_S1x64x6400_3_0_0 shapeCasts_S1x64x6400_S64x6400 r l

/-- The mask computed from an object block reads, at an entry, the mask of that entry's object word. -/
theorem mask_entry (x2 : Vec F S64x6400 .i32) (i : S64x6400.Idx) :
    k0_pay14 (F := F) (k0_pay13 x2) i = maskWide (x2 i) := by
  simp only [k0_pay14, k0_pay13, shapeCast_self]
  rfl

/-- The overlap ratio of four slabs reads, at an entry, the overlap ratio of the four entries. -/
theorem iou_entry (v8 v10 v18 v20 : FVec F S64x6400 .f32) (i : S64x6400.Idx) :
    k0_pay15 v8 v10 v18 v20 i = iou (v8 i) (v10 i) (v18 i) (v20 i) := rfl

/-- The first squared difference likewise. -/
theorem sq_entry (v4 v14 : FVec F S64x6400 .f32) (i : S64x6400.Idx) :
    k0_pay16 v4 v14 i = sqDiff (v4 i) (v14 i) := rfl

/-- The stored accumulator reads, at an entry, the entry found plus the cell's contribution. -/
theorem store_entry (v6 v8 v10 v12 v16 v18 v20 v26 v70 v72 : FVec F S64x6400 .f32) (v100 : Vec F S64x6400 .f32)
    (i : S64x6400.Idx) :
    k0_pay1 v6 v8 v10 v12 v16 v18 v20 v26 v70 v72 v100 i
      = FloatOps.addf (v100 i) (cellCore (v26 i) (v72 i) (v6 i) (v16 i) (v8 i) (v10 i) (v18 i) (v20 i) (v12 i) (v70 i)) := by
  simp only [k0_pay1, shapeCast_self]
  rfl

end slabs

/-- THE STEP at an entry: what was there plus the contribution of the cell read off the blocks at that entry. -/
theorem step_apply (acc : Vec Ideal S64x6400 .f32) (x0 : Vec Ideal S5x64x6400 .f32) (x1 : Vec Ideal S4x64x6400 .f32)
    (x2 : Vec Ideal S64x6400 .i32) (r : Fin 64) (l : Fin 6400) :
    step acc x0 x1 x2 (ix2 r l)
      = (acc (ix2 r l) : EReal) + cell (F := Ideal) (mask (x2 (ix2 r l))) (x0 (ix3 0 r l)) (x0 (ix3 1 r l)) (x0 (ix3 2 r l))
          (x0 (ix3 3 r l)) (x0 (ix3 4 r l)) (x1 (ix3 0 r l)) (x1 (ix3 1 r l)) (x1 (ix3 2 r l)) (x1 (ix3 3 r l)) := by
  unfold step
  rw [store_entry, iou_entry, sq_entry, mask_entry, pred0, pred1, pred2, pred3, pred4, targ0, targ1, targ2, targ3,
    maskWide_eq, cell_eq_core]
  rfl

/-- The zero block is zero at every entry. -/
theorem zeroBlock_apply (i : S64x6400.Idx) : (zeroBlock (F := Ideal) i : EReal) = 0 := by
  show shapeCast S64x6400 (broadcast S64x6400 (Scalar.ofBits (F := Ideal) .f32 0x00000000#32)) shapeCasts_S64x6400_S64x6400 i = 0
  rw [shapeCast_self]
  exact Ideal.ofBits_zero_f32

end Cert.KernelIdeal.Acc

end
-- ==== Proof.LossTotal.lean ====
/-
  The loss as one number: the total of the per-cell contributions over the 1024 × 80 × 80 cells, divided by 1024.

  A cell (n, y, x) has the five prediction numbers `p (n, y, x, 0 … 4)`, the four target numbers `g (n, y, x, 0 … 3)` and the
  object word `o (n, y, x)`. Both programs are shown to end at `total p g o`.
-/
import proofs.«100956_j25546465477236_2_alg».proof.Proof.CellLoss

noncomputable section

namespace Cert.LossTotal

open Idealize.ShloMosaic Idealize.ShloMosaic.ValueIdx Cert.CellLoss

abbrev Cells : Shape := ⟨3, ![1024, 80, 80]⟩
abbrev Pred : Shape := ⟨4, ![1024, 80, 80, 5]⟩
abbrev Targ : Shape := ⟨4, ![1024, 80, 80, 4]⟩

/-- Channel `k` of a channels-last array at a cell. -/
abbrev chan {C : ℕ} (a : (⟨4, ![1024, 80, 80, C]⟩ : Shape).Idx → EReal) (j : Cells.Idx) (k : Fin C) : EReal :=
  a (ix4 (j 0 : Fin 1024) (j 1 : Fin 80) (j 2 : Fin 80) k)

variable (p : Pred.Idx → EReal) (g : Targ.Idx → EReal) (o : Cells.Idx → BitVec 32)

/-- A cell's mask and its four terms. -/
def μ (j : Cells.Idx) : EReal := mask (F := Ideal) (o j)
def xyAt (j : Cells.Idx) : EReal := xyTerm (F := Ideal) (chan p j 0) (chan p j 1) (chan g j 0) (chan g j 1)
def whAt (j : Cells.Idx) : EReal := whTerm (F := Ideal) (chan p j 2) (chan p j 3) (chan g j 2) (chan g j 3)
def obAt (j : Cells.Idx) : EReal := objTerm (F := Ideal) (chan p j 4) (chan p j 2) (chan p j 3) (chan g j 2) (chan g j 3)
def nbAt (j : Cells.Idx) : EReal := noobjTerm (F := Ideal) (chan p j 4)

/-- A cell's contribution. -/
def cellAt (j : Cells.Idx) : EReal :=
  cell (F := Ideal) (μ o j) (chan p j 0) (chan p j 1) (chan p j 2) (chan p j 3) (chan p j 4)
    (chan g j 0) (chan g j 1) (chan g j 2) (chan g j 3)

/-- THE LOSS: the total over all cells, divided by the word of 1024. -/
def total : EReal := Ideal.div (∑ j : Cells.Idx, cellAt p g o j) (Ideal.ofBits .f32 0x44800000#32)

/-- The total of the contributions, regrouped into the four separate totals. -/
theorem sum_cells_regroup :
    ∑ j : Cells.Idx, cellAt p g o j
      = ((five : Ideal .f32) * (∑ j : Cells.Idx, μ o j * xyAt p g j + ∑ j : Cells.Idx, μ o j * whAt p g j)
          + ∑ j : Cells.Idx, μ o j * obAt p g j)
        + (half : Ideal .f32) * ∑ j : Cells.Idx, ((one : Ideal .f32) - μ o j) * nbAt p j := by
  rw [← total_regroup Finset.univ (μ o) (xyAt p g) (whAt p g) (obAt p g) (nbAt p) (fun j => mask_cases (o j))]
  exact Finset.sum_congr rfl fun j _ => cell_regroup (mask_cases (o j)) _ _ _ _ _ _ _ _ _

end Cert.LossTotal

end
-- ==== Proof.LibChannelMajor.lean ====
/-
  A channels-last array laid channel-major with its two spatial axes merged, read at coordinates; and sums that do not
  see a reshape. At any extents and for any element type.

  An array `x` of shape [n, h, w, c] (one record of `c` channels per cell of an `h × w` grid, for `n` samples) is
  transposed to [c, n, h, w] and reshaped to [c, n, p] with `p = h·w`. A reshape keeps the row-major position, so the
  entry at channel `k` and flat cell `q` of [n, p] is the entry of `x` at channel `k` of the cell of [n, h, w] with
  the same row-major position as `q` — the cell the reshape [n, h, w] → [n, p] pairs with `q`.
-/
import Mathlib.Algebra.BigOperators.Fin
import Idealize.ShloMosaic.Lib.Pipeline.Value
import Idealize.ShloMosaic.Lib.ValueIdx

namespace Cert.ChannelMajor

open Idealize.ShloMosaic Idealize.ShloMosaic.ValueIdx

variable {α : Type}

/-- The cell of [n, h, w] that the reshape to [n, p] pairs with the flat cell `q`. -/
abbrev cellOf {n h w p : ℕ} (hC : (⟨3, ![n, h, w]⟩ : Shape).ShapeCasts ⟨2, ![n, p]⟩) (q : (⟨2, ![n, p]⟩ : Shape).Idx) :
    (⟨3, ![n, h, w]⟩ : Shape).Idx := Shape.reshapeEquiv hC q

/-- The two cells have the same row-major position. -/
theorem cellOf_pos {n h w p : ℕ} (hC : (⟨3, ![n, h, w]⟩ : Shape).ShapeCasts ⟨2, ![n, p]⟩) (q : (⟨2, ![n, p]⟩ : Shape).Idx) :
    ((cellOf hC q 0).val * h + (cellOf hC q 1).val) * w + (cellOf hC q 2).val = (q 0).val * p + (q 1).val := by
  have e := Shape.rowMajor_reshapeEquiv hC q
  rw [Shape.rowMajor_val_three, Shape.rowMajor_val_two] at e
  exact e

/-- [n, h, w] reshaped to [n, p] reads, at the flat cell `q`, the cell paired with it. -/
theorem flat_apply {n h w p : ℕ} (x : (⟨3, ![n, h, w]⟩ : Shape).Idx → α)
    (hC : (⟨3, ![n, h, w]⟩ : Shape).ShapeCasts ⟨2, ![n, p]⟩) (q : (⟨2, ![n, p]⟩ : Shape).Idx) :
    shapeCast ⟨2, ![n, p]⟩ x hC q = x (cellOf hC q) := rfl

/-- [n, h, w, c] transposed to [c, n, h, w] and reshaped to [c, n, p] reads, at channel `k` of the flat cell `q`, channel
    `k` of the cell paired with `q`. -/
theorem channelMajor_apply {n h w c p : ℕ} (hp : h * w = p) (x : (⟨4, ![n, h, w, c]⟩ : Shape).Idx → α)
    (hT : (⟨4, ![n, h, w, c]⟩ : Shape).Transposes [3, 0, 1, 2] ⟨4, ![c, n, h, w]⟩)
    (hC4 : (⟨4, ![c, n, h, w]⟩ : Shape).ShapeCasts ⟨3, ![c, n, p]⟩)
    (hC : (⟨3, ![n, h, w]⟩ : Shape).ShapeCasts ⟨2, ![n, p]⟩)
    (k : Fin c) (q : (⟨2, ![n, p]⟩ : Shape).Idx) :
    shapeCast ⟨3, ![c, n, p]⟩ (transpose ⟨4, ![c, n, h, w]⟩ [3, 0, 1, 2] x hT) hC4 (ix3 k (q 0) (q 1))
      = x (ix4 (cellOf hC q 0) (cellOf hC q 1) (cellOf hC q 2) k) := by
  have e := cellOf_pos hC q
  refine (shapeCast_apply _ hC4 (ix3 k (q 0) (q 1)) (ix4 k (cellOf hC q 0) (cellOf hC q 1) (cellOf hC q 2)) ?_).trans ?_
  · rw [Shape.rowMajor_val_four, Shape.rowMajor_val_three]
    show ((k.val * n + (cellOf hC q 0).val) * h + (cellOf hC q 1).val) * w + (cellOf hC q 2).val
      = (k.val * n + (q 0).val) * p + (q 1).val
    calc ((k.val * n + (cellOf hC q 0).val) * h + (cellOf hC q 1).val) * w + (cellOf hC q 2).val
        = k.val * n * (h * w) + (((cellOf hC q 0).val * h + (cellOf hC q 1).val) * w + (cellOf hC q 2).val) := by ring
      _ = k.val * n * p + ((q 0).val * p + (q 1).val) := by rw [hp, e]
      _ = (k.val * n + (q 0).val) * p + (q 1).val := by ring
  · exact transpose_apply _ x hT _ _ fun b => match b with
      | ⟨0, _⟩ => rfl | ⟨1, _⟩ => rfl | ⟨2, _⟩ => rfl | ⟨3, _⟩ => rfl

/-- A sum over the cells of [n, h, w] is the sum over the flat cells of [n, p] of the paired cells: a reshape only renames
    the indices. In any commutative additive monoid. -/
theorem sum_cells {M : Type*} [AddCommMonoid M] {n h w p : ℕ} (hC : (⟨3, ![n, h, w]⟩ : Shape).ShapeCasts ⟨2, ![n, p]⟩)
    (f : (⟨3, ![n, h, w]⟩ : Shape).Idx → M) :
    ∑ i : (⟨3, ![n, h, w]⟩ : Shape).Idx, f i = ∑ q : (⟨2, ![n, p]⟩ : Shape).Idx, f (cellOf hC q) :=
  (Equiv.sum_comp (Shape.reshapeEquiv hC) f).symm

end Cert.ChannelMajor
-- ==== Proof.KernelBlocks.lean ====
/-
  The blocks a grid point reads, traced back to the program's arguments, on the extended reals.

  Before the grid runs, the prediction and target arrays are laid channel-major and their spatial axes merged
  ([1024, 80, 80, C] → [C, 1024, 6400]) and the object array is flattened ([1024, 80, 80] → [1024, 6400]). Point `t` reads
  rows `64·t … 64·t + 63` of each. So entry (r, l) of point `t`'s blocks is the cell paired with the flat cell
  (64·t + r, l), and the step's contribution at that entry is that cell's contribution.
-/
import proofs.«100956_j25546465477236_2_alg».proof.Proof.KernelRun
import proofs.«100956_j25546465477236_2_alg».proof.Proof.KernelCell
import proofs.«100956_j25546465477236_2_alg».proof.Proof.LossTotal
import proofs.«100956_j25546465477236_2_alg».proof.Proof.LibChannelMajor
import proofs.«100956_j25546465477236_2_alg».proof.Proof.LibGridSum
import Idealize.ShloMosaic.Lib.StableHlo.Run

set_option maxRecDepth 16384

noncomputable section

namespace Cert.KernelIdeal.Acc

open Cert.KernelIdeal Cert.KernelIdeal.Gen Cert.CellLoss Cert.LossTotal Cert.ChannelMajor Cert.GridSum
open Idealize.ShloMosaic Idealize.ShloMosaic.ValueIdx Idealize.ShloMosaic.TcCoe Idealize.SL.Sem
open Idealize.ShloMosaic.StableHlo

variable (m : (ℓ : Loc nD τ sig) → Buf (Elt Ideal) ℓ)

/-- The three arguments as launched. -/
abbrev argPred (c : Dev nD) : Pred.Idx → EReal := m ((c : Thread nD τ).loc main_arg0)
abbrev argTarg (c : Dev nD) : Targ.Idx → EReal := m ((c : Thread nD τ).loc main_arg1)
abbrev argObj (c : Dev nD) : Cells.Idx → BitVec 32 := m ((c : Thread nD τ).loc main_arg2)

/-! ## The arrays the region finds -/

theorem found_pred (c : Dev nD) :
    (V m c main_v1 : S5x1024x6400.Idx → EReal)
      = shapeCast S5x1024x6400 (transpose S5x1024x80x80 [3, 0, 1, 2] (argPred m c) transposes_S1024x80x80x5_S5x1024x80x80_3_0_1_2)
          shapeCasts_S5x1024x80x80_S5x1024x6400 := by
  show StableHlo.after hostOps0 (fun b => m (c, b)) (Proc.devRef .tc main_v1) = _
  after_results
  rfl

theorem found_targ (c : Dev nD) :
    (V m c main_v3 : S4x1024x6400.Idx → EReal)
      = shapeCast S4x1024x6400 (transpose S4x1024x80x80 [3, 0, 1, 2] (argTarg m c) transposes_S1024x80x80x4_S4x1024x80x80_3_0_1_2)
          shapeCasts_S4x1024x80x80_S4x1024x6400 := by
  show StableHlo.after hostOps0 (fun b => m (c, b)) (Proc.devRef .tc main_v3) = _
  after_results
  rfl

theorem found_obj (c : Dev nD) :
    (V m c main_v4 : S1024x6400.Idx → BitVec 32) = shapeCast S1024x6400 (argObj m c) shapeCasts_S1024x80x80_S1024x6400 := by
  show StableHlo.after hostOps0 (fun b => m (c, b)) (Proc.devRef .tc main_v4) = _
  after_results
  rfl

/-! ## The windows' index maps, decided over the grid -/

theorem index_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 2) = t.val ∧ win0_2.index t (1 : Fin 2) = 0
    ∧ win0_3.index t (0 : Fin 3) = t.val / 8 ∧ win0_3.index t (1 : Fin 3) = 0 ∧ win0_3.index t (2 : Fin 3) = 0 :=
  (by decide +kernel : ∀ t : Fin grid0.N, _)

/-- The flat cell that entry `y` of point `t`'s blocks is: row `64·t + y₀`, column `y₁`. -/
abbrev flatCell (t : Fin 16) (y : S64x6400.Idx) : S1024x6400.Idx := blockRow (T := 16) (R := 64) (C := 6400) (N := 1024) rfl t y

theorem point_lt (t : Fin cfg0.N) : t.val < 16 := lt_of_lt_of_eq t.isLt N_0

/-! ## Entries of a point's blocks are the arguments at the paired cell -/

theorem pred_entry (c : Dev nD) (t : Fin cfg0.N) (k : Fin 5) (y : S64x6400.Idx) :
    (predBlock m c t (ix3 k (y 0) (y 1)) : EReal)
      = chan (argPred m c) (cellOf shapeCasts_S1024x80x80_S1024x6400 (flatCell ⟨t.val, point_lt t⟩ y)) k := by
  obtain ⟨e0, e1, e2, -⟩ := index_facts t
  have hb : (predBlock m c t (ix3 k (y 0) (y 1)) : EReal)
      = V m c main_v1 (ix3 k ((flatCell ⟨t.val, point_lt t⟩ y) 0) ((flatCell ⟨t.val, point_lt t⟩ y) 1)) := by
    unfold predBlock iblk
    rw [View.read_apply]
    show V m c main_v1 _ = V m c main_v1 _
    refine congrArg (V m c main_v1) (funext fun a => Fin.ext ?_)
    match a with
    | ⟨0, _⟩ => show win0_0.index t (0 : Fin 3) * 5 + 1 * k.val = k.val; rw [e0]; omega
    | ⟨1, _⟩ => show win0_0.index t (1 : Fin 3) * 64 + 1 * (y 0).val = t.val * 64 + (y 0).val; rw [e1]; omega
    | ⟨2, _⟩ => show win0_0.index t (2 : Fin 3) * 6400 + 1 * (y 1).val = (y 1).val; rw [e2]; omega
  rw [hb, found_pred]
  exact channelMajor_apply (by norm_num) (argPred m c) _ _ shapeCasts_S1024x80x80_S1024x6400 k (flatCell ⟨t.val, point_lt t⟩ y)

theorem targ_entry (c : Dev nD) (t : Fin cfg0.N) (k : Fin 4) (y : S64x6400.Idx) :
    (targBlock m c t (ix3 k (y 0) (y 1)) : EReal)
      = chan (argTarg m c) (cellOf shapeCasts_S1024x80x80_S1024x6400 (flatCell ⟨t.val, point_lt t⟩ y)) k := by
  obtain ⟨-, -, -, e0, e1, e2, -⟩ := index_facts t
  have hb : (targBlock m c t (ix3 k (y 0) (y 1)) : EReal)
      = V m c main_v3 (ix3 k ((flatCell ⟨t.val, point_lt t⟩ y) 0) ((flatCell ⟨t.val, point_lt t⟩ y) 1)) := by
    unfold targBlock iblk
    rw [View.read_apply]
    show V m c main_v3 _ = V m c main_v3 _
    refine congrArg (V m c main_v3) (funext fun a => Fin.ext ?_)
    match a with
    | ⟨0, _⟩ => show win0_1.index t (0 : Fin 3) * 4 + 1 * k.val = k.val; rw [e0]; omega
    | ⟨1, _⟩ => show win0_1.index t (1 : Fin 3) * 64 + 1 * (y 0).val = t.val * 64 + (y 0).val; rw [e1]; omega
    | ⟨2, _⟩ => show win0_1.index t (2 : Fin 3) * 6400 + 1 * (y 1).val = (y 1).val; rw [e2]; omega
  rw [hb, found_targ]
  exact channelMajor_apply (by norm_num) (argTarg m c) _ _ shapeCasts_S1024x80x80_S1024x6400 k (flatCell ⟨t.val, point_lt t⟩ y)

theorem obj_entry (c : Dev nD) (t : Fin cfg0.N) (y : S64x6400.Idx) :
    objBlock m c t y = argObj m c (cellOf shapeCasts_S1024x80x80_S1024x6400 (flatCell ⟨t.val, point_lt t⟩ y)) := by
  obtain ⟨-, -, -, -, -, -, e0, e1, -⟩ := index_facts t
  have hb : objBlock m c t y = V m c main_v4 (flatCell ⟨t.val, point_lt t⟩ y) := by
    unfold objBlock iblk
    rw [View.read_apply]
    show V m c main_v4 _ = V m c main_v4 _
    refine congrArg (V m c main_v4) (funext fun a => Fin.ext ?_)
    match a with
    | ⟨0, _⟩ => show win0_2.index t (0 : Fin 2) * 64 + 1 * (y 0).val = t.val * 64 + (y 0).val; rw [e0]; omega
    | ⟨1, _⟩ => show win0_2.index t (1 : Fin 2) * 6400 + 1 * (y 1).val = (y 1).val; rw [e1]; omega
  rw [hb, found_obj]
  rfl

/-! ## One step, in the arguments -/

/-- The cell that entry `y` of point `t`'s blocks is. -/
abbrev cellAtPoint (t : Fin 16) (y : S64x6400.Idx) : Cells.Idx :=
  cellOf shapeCasts_S1024x80x80_S1024x6400 (flatCell t y)

/-- The step at any entry `y`: what was there plus the contribution read off the blocks at `y`'s coordinates. -/
theorem step_entry (acc : Vec Ideal S64x6400 .f32) (x0 : Vec Ideal S5x64x6400 .f32) (x1 : Vec Ideal S4x64x6400 .f32)
    (x2 : Vec Ideal S64x6400 .i32) (y : S64x6400.Idx) :
    (step acc x0 x1 x2 y : EReal)
      = (acc y : EReal) + cell (F := Ideal) (mask (x2 y)) (x0 (ix3 0 (y 0) (y 1))) (x0 (ix3 1 (y 0) (y 1))) (x0 (ix3 2 (y 0) (y 1)))
          (x0 (ix3 3 (y 0) (y 1))) (x0 (ix3 4 (y 0) (y 1))) (x1 (ix3 0 (y 0) (y 1))) (x1 (ix3 1 (y 0) (y 1)))
          (x1 (ix3 2 (y 0) (y 1))) (x1 (ix3 3 (y 0) (y 1))) := by
  obtain ⟨r, l, rfl⟩ : ∃ (r : Fin 64) (l : Fin 6400), y = ix2 r l := ⟨y 0, y 1, eq_ix2 y⟩
  exact step_apply acc x0 x1 x2 r l

/-- A step at point `t` adds, at entry `y`, the contribution of the cell that entry is. -/
theorem step_at_point (c : Dev nD) (t : Fin cfg0.N) (acc : Vec Ideal S64x6400 .f32) (y : S64x6400.Idx) :
    (step acc (predBlock m c t) (targBlock m c t) (objBlock m c t) y : EReal)
      = (acc y : EReal) + cellAt (argPred m c) (argTarg m c) (argObj m c) (cellAtPoint ⟨t.val, point_lt t⟩ y) := by
  rw [step_entry, pred_entry, pred_entry, pred_entry, pred_entry, pred_entry, targ_entry, targ_entry, targ_entry, targ_entry, obj_entry]
  rfl

end Cert.KernelIdeal.Acc

end
-- ==== Proof.KernelClosed.lean ====
/-
  The accumulator in closed form, on the extended reals: after point `n` the accumulator holds, at each entry, the sum of
  the contributions of that entry's cells at the points of `n`'s core so far (induction on the point: a core's first point
  starts from zero, every other point adds to what the point before left). A core's total is the accumulator after its
  last point summed over its entries.
-/
import proofs.«100956_j25546465477236_2_alg».proof.Proof.KernelBlocks

set_option maxRecDepth 16384

noncomputable section

namespace Cert.KernelIdeal.Acc

open Cert.KernelIdeal Cert.KernelIdeal.Gen Cert.CellLoss Cert.LossTotal Cert.ChannelMajor Cert.GridSum
open Idealize.ShloMosaic Idealize.ShloMosaic.ValueIdx Idealize.ShloMosaic.TcCoe Idealize.SL.Sem
open Idealize.ShloMosaic.StableHlo
open Idealize.ShloMosaic.Pipeline (Dat)

variable (m : (ℓ : Loc nD τ sig) → Buf (Elt Ideal) ℓ)

/-! ## The accumulator in closed form -/

/-- The contribution that point `t` adds at entry `y` (zero beyond the grid's sixteen points). -/
def contrib (c : Dev nD) (t : ℕ) (y : S64x6400.Idx) : EReal :=
  if ht : t < 16 then cellAt (argPred m c) (argTarg m c) (argObj m c) (cellAtPoint ⟨t, ht⟩ y) else 0

theorem contrib_of_lt (c : Dev nD) {t : ℕ} (ht : t < 16) (y : S64x6400.Idx) :
    contrib m c t y = cellAt (argPred m c) (argTarg m c) (argObj m c) (cellAtPoint ⟨t, ht⟩ y) := dif_pos ht

/-- A step at point `t` adds that contribution. -/
theorem step_contrib (c : Dev nD) (t : Fin cfg0.N) (acc : Vec Ideal S64x6400 .f32) (y : S64x6400.Idx) :
    (step acc (predBlock m c t) (targBlock m c t) (objBlock m c t) y : EReal) = (acc y : EReal) + contrib m c t.val y :=
  (step_at_point m c t acc y).trans (congrArg (fun z => (acc y : EReal) + z) (contrib_of_lt m c (point_lt t) y).symm)

/-- After point `n`, entry `y` holds the contributions of the points of `n`'s core up to `n`. -/
theorem acc_closed (c : Dev nD) : ∀ (n : ℕ) (h : n < cfg0.N) (y : S64x6400.Idx),
    (accAfter m c n h y : EReal) = ∑ u ∈ Finset.range (n % 8 + 1), contrib m c (n - n % 8 + u) y
  | 0, h, y => by
    rw [accAfter_zero, step_contrib m c ⟨0, h⟩, zeroBlock_apply, zero_add]
    show contrib m c 0 y = ∑ u ∈ Finset.range 1, contrib m c (0 - 0 + u) y
    rw [Finset.sum_range_one]
  | n + 1, h, y => by
    rw [accAfter_succ, step_contrib m c ⟨n + 1, h⟩]
    show ((if (n + 1) % 8 = 0 then zeroBlock else accAfter m c n (Nat.lt_of_succ_lt h)) y : EReal) + contrib m c (n + 1) y = _
    by_cases h0 : (n + 1) % 8 = 0
    · rw [if_pos h0, zeroBlock_apply, zero_add, h0, Finset.sum_range_one]
      rfl
    · rw [if_neg h0, acc_closed c n (Nat.lt_of_succ_lt h) y]
      have e1 : (n + 1) % 8 = n % 8 + 1 := by omega
      have e2 : n + 1 - (n % 8 + 1) = n - n % 8 := by omega
      have e3 : n - n % 8 + (n % 8 + 1) = n + 1 := by omega
      rw [e1, e2, Finset.sum_range_succ _ (n % 8 + 1), e3]

theorem core_last_lt (k : Fin 2) : 8 * k.val + 7 < cfg0.N := by
  rw [show cfg0.N = 16 from N_0]; omega

/-- Core `k`'s total: the accumulator after the core's last point, summed over its entries. -/
def coreSum (c : Dev nD) (k : Fin 2) : EReal :=
  ∑ y : S64x6400.Idx, (accAfter m c (8 * k.val + 7) (core_last_lt k) y : EReal)

theorem coreSum_eq (c : Dev nD) (k : Fin 2) :
    coreSum m c k = ∑ y : S64x6400.Idx, ∑ u ∈ Finset.range 8, contrib m c (8 * k.val + u) y := by
  unfold coreSum
  refine Finset.sum_congr rfl fun y _ => ?_
  rw [acc_closed]
  have e1 : (8 * k.val + 7) % 8 + 1 = 8 := by omega
  have e2 : 8 * k.val + 7 - (8 * k.val + 7) % 8 = 8 * k.val := by omega
  rw [e1, e2]

end Cert.KernelIdeal.Acc

end
-- ==== Proof.KernelSum.lean ====
/-
  A core's closing total on the extended reals: the number spread over the output block is, at every entry, the sum of
  the accumulator over all its entries (the accumulator laid as [1, 64, 6400] and added up along its two long axes from
  zero; a reshape does not change a sum over every entry).
-/
import proofs.«100956_j25546465477236_2_alg».proof.Proof.KernelPieces
import Idealize.ShloMosaic.PureOps.Ideal.Laws

set_option maxRecDepth 16384

noncomputable section

namespace Cert.KernelIdeal.Acc

open Cert.KernelIdeal Cert.KernelIdeal.Gen
open Idealize.ShloMosaic Idealize.ShloMosaic.TcCoe Idealize.SL.Sem

/-- A sum over every entry of the accumulator laid as [1, 64, 6400] is the sum over its own entries. -/
theorem sum_laid (acc : S64x6400.Idx → EReal) :
    ∑ i : S1x64x6400.Idx, shapeCast S1x64x6400 acc shapeCasts_S64x6400_S1x64x6400 i = ∑ y : S64x6400.Idx, acc y :=
  Equiv.sum_comp (Shape.reshapeEquiv shapeCasts_S64x6400_S1x64x6400) acc

/-- The result of the reduction has one entry. -/
theorem unit_axes : ∀ b : Fin S1.rank, S1.size b = 1 := fun b => by
  match b with
  | ⟨0, _⟩ => rfl

/-- THE CLOSING TOTAL at any entry of the output block: the sum of the accumulator over all its entries. -/
theorem spreadSum_apply (acc : Vec Ideal S64x6400 .f32) (j : S1x8x128.Idx) :
    (spreadSum acc j : EReal) = ∑ y : S64x6400.Idx, (acc y : EReal) := by
  unfold spreadSum
  simp only [k0_pay2, broadcast, extractAt, shapeCast]
  exact (Ideal.multiReduction_add_total _ _ _ unit_axes _ _ _).trans (sum_laid acc)

end Cert.KernelIdeal.Acc

end
-- ==== Proof.KernelArray.lean ====
/-
  The output array after the grid: a core's last point spreads the accumulator's total over the core's block; the two
  blocks tile the array, so it holds, in every entry of block `k`, core `k`'s total.
-/
import proofs.«100956_j25546465477236_2_alg».proof.Proof.KernelClosed
import proofs.«100956_j25546465477236_2_alg».proof.Proof.KernelSum
import Idealize.ShloMosaic.Lib.Pipeline.Value

set_option maxRecDepth 16384

noncomputable section

namespace Cert.KernelIdeal.Acc

open Cert.KernelIdeal Cert.KernelIdeal.Gen Cert.CellLoss Cert.LossTotal Cert.ChannelMajor Cert.GridSum
open Idealize.ShloMosaic Idealize.ShloMosaic.ValueIdx Idealize.ShloMosaic.TcCoe Idealize.SL.Sem
open Idealize.ShloMosaic.StableHlo
open Idealize.ShloMosaic.Pipeline (Dat)

variable (m : (ℓ : Loc nD τ sig) → Buf (Elt Ideal) ℓ)

-- the closing total enters only through its value, the sum of the accumulator over its 409,600 entries
attribute [local irreducible] k0_pay2

/-! ## The output array -/

theorem accAfter_congr (c : Dev nD) {n n' : ℕ} (e : n = n') (h : n < cfg0.N) (h' : n' < cfg0.N) :
    accAfter m c n h = accAfter m c n' h' := by subst e; rfl

/-- What the output array ends holding: core `k`'s total in every entry of block `k`. -/
abbrev outArray (c : Dev nD) : S2x8x128.Idx → EReal := fun i => coreSum m c (i 0)

/-- What a core's last point writes back is its block of `outArray`. -/
theorem flushed_eq (c : Dev nD) (t : Fin cfg0.N) (hf : (cfg0.win 3).flush t = true) :
    (dats m 0 c).flushed 3 t = ((cfg0.win 3).blk t).view.read (Elt Ideal) (outArray m c) := by
  have h7 : t.val % 8 = 7 := (flush0_3 t).mp hf
  have hN : t.val < 16 := point_lt t
  obtain ⟨-, -, -, -, -, -, -, -, e0, -, -⟩ := index_facts t
  show (cfg0.win 3).cut (grid0.coords t) ((dats m 0 c).after 3 t) = _
  rw [after0_3, written_eq m c t h7]
  funext j
  rw [View.read_apply]
  simp only [Pipeline.Window.cut]
  rw [spreadSum_apply]
  refine Eq.trans ?_ (cast_eq _ _).symm
  change _ = coreSum m c _
  unfold coreSum
  refine Finset.sum_congr rfl fun y _ => congrFun (accAfter_congr m c ?_ _ _) y
  show t.val = 8 * (win0_3.index t (0 : Fin 3) * 1 + 1 * (j 0).val) + 7
  have hj : (j 0).val < 1 := (j 0).isLt
  rw [e0]; omega

/-- An entry of the output array is in point `t`'s block iff each coordinate is in the block's range. -/
theorem mem_block (t : Fin cfg0.N) (i : S2x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v5).slice (win0_3.rect t)).set ↔ _
  rw [View.set_slice_whole, Rect.mem_set_unit]
  exact Iff.rfl

/-- The output array after the run. -/
theorem final_out (c : Dev nD) : (dats m 0 c).arrAt 3 cfg0.N = outArray m c :=
  (dats m 0 c).arrAt_eq_of_cover 3 (outArray m c) (flushed_eq m c) fun i => by
    have hi0 : (i 0).val < 2 := (i 0).isLt
    have hi1 : (i 1).val < 8 := (i 1).isLt
    have hi2 : (i 2).val < 128 := (i 2).isLt
    have hlt : 8 * (i 0).val + 7 < cfg0.N := by rw [show cfg0.N = 16 from N_0]; omega
    refine ⟨⟨8 * (i 0).val + 7, hlt⟩, (flush0_3 _).mpr (by show (8 * (i 0).val + 7) % 8 = 7; omega), ?_⟩
    obtain ⟨-, -, -, -, -, -, -, -, e0, e1, e2⟩ := index_facts ⟨8 * (i 0).val + 7, hlt⟩
    rw [mem_block]
    intro a
    match a with
    | ⟨0, _⟩ =>
      show win0_3.index ⟨8 * (i 0).val + 7, hlt⟩ (0 : Fin 3) * 1 ≤ (i 0).val ∧ (i 0).val < win0_3.index ⟨8 * (i 0).val + 7, hlt⟩ (0 : Fin 3) * 1 + 1
      rw [e0]; dsimp only; omega
    | ⟨1, _⟩ =>
      show win0_3.index ⟨8 * (i 0).val + 7, hlt⟩ (1 : Fin 3) * 8 ≤ (i 1).val ∧ (i 1).val < win0_3.index ⟨8 * (i 0).val + 7, hlt⟩ (1 : Fin 3) * 8 + 8
      rw [e1]; omega
    | ⟨2, _⟩ =>
      show win0_3.index ⟨8 * (i 0).val + 7, hlt⟩ (2 : Fin 3) * 128 ≤ (i 2).val ∧ (i 2).val < win0_3.index ⟨8 * (i 0).val + 7, hlt⟩ (2 : Fin 3) * 128 + 128
      rw [e2]; omega

end Cert.KernelIdeal.Acc

end
-- ==== Proof.LibBlockSum.lean ====
/-
  Sums over an index set cut into equal blocks, and two-dimensional arrays read at natural-number coordinates.

  • A sum over the naturals below a·b, of a function of the natural index, is the sum over the a blocks of the sums over the b
    places within a block (index b·r + p): the index set is cut into consecutive blocks. Stated in any commutative
    additive monoid, so it holds of the extended reals, where sums need no finiteness.
  • `at2 X i j` reads a two-dimensional array of extended reals at natural-number coordinates (zero outside the array),
    so that a sum over blocks can be written without carrying bound proofs through the summation.
-/
import Mathlib.Algebra.BigOperators.Fin
import Mathlib.Algebra.BigOperators.Intervals
import Idealize.ShloMosaic.Lib.ValueIdx
import Mathlib.Data.EReal.Basic

namespace Cert.BlockSum

open Idealize.ShloMosaic Idealize.ShloMosaic.ValueIdx

variable {M : Type*} [AddCommMonoid M]

/-- A sum over the `a` blocks of `b` consecutive indices each is the sum over all `a * b` indices. -/
theorem sum_range_mul (a b : ℕ) (f : ℕ → M) :
    ∑ r ∈ Finset.range a, ∑ p ∈ Finset.range b, f (b * r + p) = ∑ i ∈ Finset.range (a * b), f i := by
  induction a with
  | zero => simp
  | succ a ih =>
    rw [Finset.sum_range_succ, ih, Nat.succ_mul, Finset.sum_range_add]
    rw [Nat.mul_comm a b]

/-- The same with the places within a block and the whole index set as `Fin` types. -/
theorem sum_range_blocks (a b : ℕ) {n : ℕ} (f : ℕ → M) (h : a * b = n) :
    ∑ r ∈ Finset.range a, ∑ p : Fin b, f (b * r + p.val) = ∑ i : Fin n, f i.val := by
  subst h
  rw [Finset.sum_range (fun i => f i) |>.symm]
  rw [← sum_range_mul a b f]
  exact Finset.sum_congr rfl fun r _ => (Finset.sum_range (fun p => f (b * r + p))).symm

/-- An array of extended reals as the function of its index that it is: a way to say at which type its entries are read. -/
abbrev asFn (s : Shape) (X : s.Idx → EReal) : s.Idx → EReal := X

/-- A two-dimensional array read at natural-number coordinates; zero outside the array. -/
noncomputable def at2 {a b : ℕ} (X : (⟨2, ![a, b]⟩ : Shape).Idx → EReal) (i j : ℕ) : EReal :=
  if h : i < a ∧ j < b then X (ix2 ⟨i, h.1⟩ ⟨j, h.2⟩) else 0

theorem at2_of_lt {a b : ℕ} (X : (⟨2, ![a, b]⟩ : Shape).Idx → EReal) {i j : ℕ} (hi : i < a) (hj : j < b) :
    at2 X i j = X (ix2 ⟨i, hi⟩ ⟨j, hj⟩) := dif_pos ⟨hi, hj⟩

theorem at2_ix2 {a b : ℕ} (X : (⟨2, ![a, b]⟩ : Shape).Idx → EReal) (i : Fin a) (j : Fin b) :
    at2 X i.val j.val = X (ix2 i j) := at2_of_lt X i.isLt j.isLt

end Cert.BlockSum
-- ==== Proof.KernelCores.lean ====
/-
  The two cores' totals add up to the total over all cells: the sixteen points' rows tile the 1024 rows of the flattened
  arrays, and the reshape [1024, 80, 80] → [1024, 6400] only renames the cells.
-/
import proofs.«100956_j25546465477236_2_alg».proof.Proof.KernelClosed
import proofs.«100956_j25546465477236_2_alg».proof.Proof.LibBlockSum

set_option maxRecDepth 16384

noncomputable section

namespace Cert.KernelIdeal.Acc

open Cert.KernelIdeal Cert.KernelIdeal.Gen Cert.CellLoss Cert.LossTotal Cert.ChannelMajor Cert.GridSum
open Idealize.ShloMosaic Idealize.ShloMosaic.ValueIdx Idealize.ShloMosaic.TcCoe Idealize.SL.Sem
open Idealize.ShloMosaic.StableHlo
open Idealize.ShloMosaic.Pipeline (Dat)

variable (m : (ℓ : Loc nD τ sig) → Buf (Elt Ideal) ℓ)

/-- The two cores' totals add up to the total over all cells. -/
theorem cores_total (c : Dev nD) :
    ∑ k : Fin 2, coreSum m c k = ∑ j : Cells.Idx, cellAt (argPred m c) (argTarg m c) (argObj m c) j := by
  have hy : ∀ y : S64x6400.Idx, ∑ k : Fin 2, ∑ u ∈ Finset.range 8, contrib m c (8 * k.val + u) y
      = ∑ t : Fin 16, cellAt (argPred m c) (argTarg m c) (argObj m c) (cellAtPoint t y) := by
    intro y
    rw [← Finset.sum_range (fun r => ∑ u ∈ Finset.range 8, contrib m c (8 * r + u) y),
      Cert.BlockSum.sum_range_mul 2 8 (fun t => contrib m c t y), show (2 * 8 : ℕ) = 16 from rfl, Finset.sum_range]
    exact Finset.sum_congr rfl fun t _ => contrib_of_lt m c t.isLt y
  calc ∑ k : Fin 2, coreSum m c k
      = ∑ k : Fin 2, ∑ y : S64x6400.Idx, ∑ u ∈ Finset.range 8, contrib m c (8 * k.val + u) y :=
        Finset.sum_congr rfl fun k _ => coreSum_eq m c k
    _ = ∑ y : S64x6400.Idx, ∑ k : Fin 2, ∑ u ∈ Finset.range 8, contrib m c (8 * k.val + u) y := Finset.sum_comm
    _ = ∑ y : S64x6400.Idx, ∑ t : Fin 16, cellAt (argPred m c) (argTarg m c) (argObj m c) (cellAtPoint t y) := Finset.sum_congr rfl fun y _ => hy y
    _ = ∑ t : Fin 16, ∑ y : S64x6400.Idx, cellAt (argPred m c) (argTarg m c) (argObj m c) (cellAtPoint t y) := Finset.sum_comm
    _ = ∑ q : S1024x6400.Idx, cellAt (argPred m c) (argTarg m c) (argObj m c) (cellOf shapeCasts_S1024x80x80_S1024x6400 q) :=
        sum_rowBlocks (T := 16) (R := 64) (C := 6400) (N := 1024) rfl
          (fun q => cellAt (argPred m c) (argTarg m c) (argObj m c) (cellOf shapeCasts_S1024x80x80_S1024x6400 q))
    _ = ∑ j : Cells.Idx, cellAt (argPred m c) (argTarg m c) (argObj m c) j := (sum_cells shapeCasts_S1024x80x80_S1024x6400 _).symm

end Cert.KernelIdeal.Acc

end
-- ==== Proof.KernelResult.lean ====
/-
  The accumulating program's result is the loss, on the extended reals: the lines after the grid take entry (k, 0, 0) of
  each core's block of the output array, add the two numbers from zero and divide by 1024; the two cores' totals add up
  to the total over all cells.
-/
import proofs.«100956_j25546465477236_2_alg».proof.Proof.KernelArray
import proofs.«100956_j25546465477236_2_alg».proof.Proof.KernelCores
import Idealize.ShloMosaic.Lib.StableHlo.Run

set_option maxRecDepth 16384

noncomputable section

namespace Cert.KernelIdeal.Acc

open Cert.KernelIdeal Cert.KernelIdeal.Gen Cert.CellLoss Cert.LossTotal
open Idealize.ShloMosaic Idealize.ShloMosaic.ValueIdx Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

attribute [local irreducible] k0_pay2

/-- The lines after the grid find the output array at `outArray`. -/
theorem found_out (c : Dev nD) :
    Pipeline.withArrays (cfgs 0).spec c (V0 m c) (fun w => (dats m 0 c).arrAt w (cfgs 0).N) (Proc.devRef .tc main_v5) = outArray m c :=
  (Pipeline.withArrays_arr spec0 launch0.win.arr_inj c _ _ 3).trans (final_out m c)

/-- Entry `k` of the two numbers the lines after the grid add is entry (k, 0, 0) of the output array. -/
theorem take_entry (X : S2x8x128.Idx → EReal) (k : Fin 2) :
    shapeCast S2 (extractStridedSlice S2x1x1 ![0, 0, 0] X slices_S2x8x128_S2x1x1_0_0_0) shapeCasts_S2x1x1_S2 (ix1 k)
      = X (ix3 k (0 : Fin 8) (0 : Fin 128)) := by
  refine (shapeCast_apply _ shapeCasts_S2x1x1_S2 (ix1 k) (ix3 k (0 : Fin 1) (0 : Fin 1)) ?_).trans ?_
  · rw [Shape.rowMajor_val_three, Shape.rowMajor_val_one]
    show (k.val * 1 + 0) * 1 + 0 = k.val
    omega
  · unfold extractStridedSlice
    refine congrArg X (funext fun a => Fin.ext ?_)
    match a with
    | ⟨0, _⟩ => show 0 + k.val = k.val; omega
    | ⟨1, _⟩ => rfl
    | ⟨2, _⟩ => rfl

/-- A sum over the indices of a two-entry vector is the sum of its two entries' terms. -/
theorem sum_two (f : S2.Idx → EReal) : ∑ i : S2.Idx, f i = ∑ k : Fin 2, f (ix1 k) :=
  (Equiv.sum_comp (⟨ix1, fun i => i 0, fun _ => rfl, fun i => (eq_ix1 i).symm⟩ : Fin 2 ≃ S2.Idx) f).symm

/-- The host's sum of a two-entry vector from the zero word is the sum of its entries. -/
theorem tail_sum (X : S2.Idx → EReal) (i : S_.Idx) :
    (Host.reduceAdd (F := Ideal) X (constant (F := Ideal) S_ .f32 0x00000000#32) reducesTo_S2_S_d0 h_S_ i : EReal) = ∑ k : S2.Idx, X k := by
  simp only [Host.reduceAdd, Ideal.hostReduceAdd_def]
  refine (Ideal.hostReduceAdd_total reducesTo_S2_S_d0 (fun b => b.elim0) X _ i).trans ?_
  show Ideal.ofBits .f32 0x00000000#32 + _ = _
  rw [Ideal.ofBits_zero_f32, zero_add]

-- from here on a core's total is a number indexed by the core, whatever it is made of
attribute [local irreducible] coreSum

/-- The result buffer after the lines that follow the grid, as those lines of the output array. -/
theorem tail_eq (c : Dev nD) :
    (Pipeline.afterTail₀ cfgs (dats m) 0 (V0 m) [hostOps1] c main_v9 : S_.Idx → EReal)
      = Host.divf (Host.reduceAdd (shapeCast S2 (extractStridedSlice S2x1x1 ![0, 0, 0] (outArray m c) slices_S2x8x128_S2x1x1_0_0_0) shapeCasts_S2x1x1_S2)
          (constant (F := Ideal) S_ .f32 0x00000000#32) reducesTo_S2_S_d0 h_S_) (constant (F := Ideal) S_ .f32 0x44800000#32) := by
  unfold Pipeline.afterTail₀
  show StableHlo.after hostOps1 _ (Proc.devRef .tc main_v9) = _
  after_results
  simp only [found_out m c]
  rfl

/-- THE RESULT of the accumulating program is the loss. -/
theorem result_eq (c : Dev nD) :
    (Pipeline.afterTail₀ cfgs (dats m) 0 (V0 m) [hostOps1] c main_v9 : S_.Idx → EReal) = fun _ => total (argPred m c) (argTarg m c) (argObj m c) := by
  rw [tail_eq]
  funext i
  show Ideal.div (Host.reduceAdd (F := Ideal) _ _ reducesTo_S2_S_d0 h_S_ i) (Ideal.ofBits .f32 0x44800000#32) = _
  rw [tail_sum, sum_two]
  simp only [take_entry]
  unfold total
  rw [← cores_total m c]

/-- The run, read: the result buffer at the loss of the arguments, the arguments unchanged. -/
theorem run : θ_run defs (onTc (τ := τ) (main (F := Ideal))) ⟨m, fun _ => 0, ρ⟩ (fun r => ∀ c : Dev nD,
      r.2.mem ((c.tc : Thread nD τ).loc main_v9) = (fun _ => total (argPred m c) (argTarg m c) (argObj m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v9 (Pipeline.mem_restRefs_of main_v9 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Acc

end
-- ==== Proof.RefTotal.lean ====
/-
  The reference program's result is the loss.

  The reference slices the nine channels out of the two channels-last arrays, forms the four terms and the mask for every
  cell at once, totals m·xy, m·wh, m·obj and (1 − m)·noobj separately (each a sum from zero over all cells), and returns
  (5·(Σ m·xy + Σ m·wh) + Σ m·obj + ½·Σ (1 − m)·noobj) / 1024. Cell by cell its terms are the specification's; the four totals
  regroup into the total of the per-cell contributions by the law of the specification.
-/
import proofs.«100956_j25546465477236_2_alg».proof.Proof.Gen.ReferenceIdeal.Read
import proofs.«100956_j25546465477236_2_alg».proof.Proof.LossTotal

set_option maxRecDepth 16384

noncomputable section

namespace Cert.RefTotal

open Cert.ReferenceIdeal Cert.ReferenceIdeal.Gen Cert.ReferenceIdeal.Read Cert.CellLoss Cert.LossTotal
open Idealize.ShloMosaic Idealize.ShloMosaic.ValueIdx

/-- A reshape that only drops a trailing unit axis reads the cell itself. -/
theorem cell_idx (j : Cells.Idx) : idx_main_v4 j = ix4 (j 0 : Fin 1024) (j 1 : Fin 80) (j 2 : Fin 80) (0 : Fin 1) := by
  have h0 : (j 0).val < 1024 := (j 0).isLt
  have h1 : (j 1).val < 80 := (j 1).isLt
  have h2 : (j 2).val < 80 := (j 2).isLt
  funext a
  match a with
  | ⟨0, _⟩ => exact Fin.ext (by show (((j 0).val * 80 + (j 1).val) * 80 + (j 2).val) / 6400 = (j 0).val; omega)
  | ⟨1, _⟩ => exact Fin.ext (by show (((j 0).val * 80 + (j 1).val) * 80 + (j 2).val) / 80 % 80 = (j 1).val; omega)
  | ⟨2, _⟩ => exact Fin.ext (by show (((j 0).val * 80 + (j 1).val) * 80 + (j 2).val) / 1 % 80 = (j 2).val; omega)
  | ⟨3, _⟩ => rfl

/-! Each sliced and reshaped channel reads that channel of the cell. -/
theorem read_v4 (x0 : Pred.Idx → EReal) (j : Cells.Idx) : val_main_v4 (F := Ideal) x0 j = chan x0 j 0 := by
  rw [val_main_v4_apply, val_main_v3_apply, show idx_main_v4 j = ix4 (j 0 : Fin 1024) (j 1 : Fin 80) (j 2 : Fin 80) (0 : Fin 1) from cell_idx j]
  exact congrArg x0 (funext fun a => match a with | ⟨0, _⟩ => rfl | ⟨1, _⟩ => rfl | ⟨2, _⟩ => rfl | ⟨3, _⟩ => rfl)

theorem read_v6 (x0 : Pred.Idx → EReal) (j : Cells.Idx) : val_main_v6 (F := Ideal) x0 j = chan x0 j 1 := by
  rw [val_main_v6_apply, val_main_v5_apply, show idx_main_v6 j = ix4 (j 0 : Fin 1024) (j 1 : Fin 80) (j 2 : Fin 80) (0 : Fin 1) from cell_idx j]
  exact congrArg x0 (funext fun a => match a with | ⟨0, _⟩ => rfl | ⟨1, _⟩ => rfl | ⟨2, _⟩ => rfl | ⟨3, _⟩ => rfl)

theorem read_v8 (x0 : Pred.Idx → EReal) (j : Cells.Idx) : val_main_v8 (F := Ideal) x0 j = chan x0 j 2 := by
  rw [val_main_v8_apply, val_main_v7_apply, show idx_main_v8 j = ix4 (j 0 : Fin 1024) (j 1 : Fin 80) (j 2 : Fin 80) (0 : Fin 1) from cell_idx j]
  exact congrArg x0 (funext fun a => match a with | ⟨0, _⟩ => rfl | ⟨1, _⟩ => rfl | ⟨2, _⟩ => rfl | ⟨3, _⟩ => rfl)

theorem read_v10 (x0 : Pred.Idx → EReal) (j : Cells.Idx) : val_main_v10 (F := Ideal) x0 j = chan x0 j 3 := by
  rw [val_main_v10_apply, val_main_v9_apply, show idx_main_v10 j = ix4 (j 0 : Fin 1024) (j 1 : Fin 80) (j 2 : Fin 80) (0 : Fin 1) from cell_idx j]
  exact congrArg x0 (funext fun a => match a with | ⟨0, _⟩ => rfl | ⟨1, _⟩ => rfl | ⟨2, _⟩ => rfl | ⟨3, _⟩ => rfl)

theorem read_v12 (x0 : Pred.Idx → EReal) (j : Cells.Idx) : val_main_v12 (F := Ideal) x0 j = chan x0 j 4 := by
  rw [val_main_v12_apply, val_main_v11_apply, show idx_main_v12 j = ix4 (j 0 : Fin 1024) (j 1 : Fin 80) (j 2 : Fin 80) (0 : Fin 1) from cell_idx j]
  exact congrArg x0 (funext fun a => match a with | ⟨0, _⟩ => rfl | ⟨1, _⟩ => rfl | ⟨2, _⟩ => rfl | ⟨3, _⟩ => rfl)

theorem read_v14 (x1 : Targ.Idx → EReal) (j : Cells.Idx) : val_main_v14 (F := Ideal) x1 j = chan x1 j 0 := by
  rw [val_main_v14_apply, val_main_v13_apply, show idx_main_v14 j = ix4 (j 0 : Fin 1024) (j 1 : Fin 80) (j 2 : Fin 80) (0 : Fin 1) from cell_idx j]
  exact congrArg x1 (funext fun a => match a with | ⟨0, _⟩ => rfl | ⟨1, _⟩ => rfl | ⟨2, _⟩ => rfl | ⟨3, _⟩ => rfl)

theorem read_v16 (x1 : Targ.Idx → EReal) (j : Cells.Idx) : val_main_v16 (F := Ideal) x1 j = chan x1 j 1 := by
  rw [val_main_v16_apply, val_main_v15_apply, show idx_main_v16 j = ix4 (j 0 : Fin 1024) (j 1 : Fin 80) (j 2 : Fin 80) (0 : Fin 1) from cell_idx j]
  exact congrArg x1 (funext fun a => match a with | ⟨0, _⟩ => rfl | ⟨1, _⟩ => rfl | ⟨2, _⟩ => rfl | ⟨3, _⟩ => rfl)

theorem read_v18 (x1 : Targ.Idx → EReal) (j : Cells.Idx) : val_main_v18 (F := Ideal) x1 j = chan x1 j 2 := by
  rw [val_main_v18_apply, val_main_v17_apply, show idx_main_v18 j = ix4 (j 0 : Fin 1024) (j 1 : Fin 80) (j 2 : Fin 80) (0 : Fin 1) from cell_idx j]
  exact congrArg x1 (funext fun a => match a with | ⟨0, _⟩ => rfl | ⟨1, _⟩ => rfl | ⟨2, _⟩ => rfl | ⟨3, _⟩ => rfl)

theorem read_v20 (x1 : Targ.Idx → EReal) (j : Cells.Idx) : val_main_v20 (F := Ideal) x1 j = chan x1 j 3 := by
  rw [val_main_v20_apply, val_main_v19_apply, show idx_main_v20 j = ix4 (j 0 : Fin 1024) (j 1 : Fin 80) (j 2 : Fin 80) (0 : Fin 1) from cell_idx j]
  exact congrArg x1 (funext fun a => match a with | ⟨0, _⟩ => rfl | ⟨1, _⟩ => rfl | ⟨2, _⟩ => rfl | ⟨3, _⟩ => rfl)

variable (x0 : Pred.Idx → EReal) (x1 : Targ.Idx → EReal) (x2 : Cells.Idx → BitVec 32)

/-- The four per-cell products the reference totals are the specification's. -/
theorem xy_summand (j : Cells.Idx) : val_main_v70 (F := Ideal) x0 x1 x2 j = μ x2 j * xyAt x0 x1 j := by
  simp only [val_main_c_apply, val_main_v0_apply, val_main_v1_apply, val_main_v2_apply, val_main_cst_apply, val_main_v21_apply, val_main_v22_apply, val_main_cst_0_apply, val_main_v23_apply, val_main_v24_apply, val_main_v25_apply, val_main_cst_1_apply, val_main_v26_apply, val_main_v27_apply, val_main_v28_apply, val_main_cst_2_apply, val_main_v29_apply, val_main_v30_apply, val_main_v31_apply, val_main_cst_3_apply, val_main_v32_apply, val_main_v33_apply, val_main_v34_apply, val_main_cst_4_apply, val_main_v35_apply, val_main_v36_apply, val_main_cst_5_apply, val_main_v37_apply, val_main_v38_apply, val_main_v39_apply, val_main_cst_6_apply, val_main_v40_apply, val_main_v41_apply, val_main_v42_apply, val_main_cst_7_apply, val_main_v43_apply, val_main_v44_apply, val_main_v45_apply, val_main_cst_8_apply, val_main_v46_apply, val_main_v47_apply, val_main_v48_apply, val_main_v49_apply, val_main_v50_apply, val_main_v51_apply, val_main_cst_9_apply, val_main_v52_apply, val_main_v53_apply, val_main_v54_apply, val_main_v55_apply, val_main_v56_apply, val_main_cst_10_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_cst_11_apply, val_main_v72_apply, val_main_v73_apply, val_main_v74_apply, val_main_v75_apply, val_main_v76_apply, val_main_v77_apply, val_main_v78_apply, val_main_v79_apply, val_main_v80_apply, val_main_v81_apply, val_main_cst_12_apply, val_main_v83_apply, val_main_v84_apply, val_main_v85_apply, val_main_cst_13_apply, val_main_cst_14_apply, val_main_v87_apply, val_main_v88_apply, val_main_v89_apply, val_main_v90_apply, val_main_cst_15_apply, val_main_cst_16_apply, val_main_cst_17_apply, val_main_cst_18_apply, read_v4, read_v6, read_v14, read_v16]
  rfl
theorem wh_summand (j : Cells.Idx) : val_main_v81 (F := Ideal) x0 x1 x2 j = μ x2 j * whAt x0 x1 j := by
  simp only [val_main_c_apply, val_main_v0_apply, val_main_v1_apply, val_main_v2_apply, val_main_cst_apply, val_main_v21_apply, val_main_v22_apply, val_main_cst_0_apply, val_main_v23_apply, val_main_v24_apply, val_main_v25_apply, val_main_cst_1_apply, val_main_v26_apply, val_main_v27_apply, val_main_v28_apply, val_main_cst_2_apply, val_main_v29_apply, val_main_v30_apply, val_main_v31_apply, val_main_cst_3_apply, val_main_v32_apply, val_main_v33_apply, val_main_v34_apply, val_main_cst_4_apply, val_main_v35_apply, val_main_v36_apply, val_main_cst_5_apply, val_main_v37_apply, val_main_v38_apply, val_main_v39_apply, val_main_cst_6_apply, val_main_v40_apply, val_main_v41_apply, val_main_v42_apply, val_main_cst_7_apply, val_main_v43_apply, val_main_v44_apply, val_main_v45_apply, val_main_cst_8_apply, val_main_v46_apply, val_main_v47_apply, val_main_v48_apply, val_main_v49_apply, val_main_v50_apply, val_main_v51_apply, val_main_cst_9_apply, val_main_v52_apply, val_main_v53_apply, val_main_v54_apply, val_main_v55_apply, val_main_v56_apply, val_main_cst_10_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_cst_11_apply, val_main_v72_apply, val_main_v73_apply, val_main_v74_apply, val_main_v75_apply, val_main_v76_apply, val_main_v77_apply, val_main_v78_apply, val_main_v79_apply, val_main_v80_apply, val_main_v81_apply, val_main_cst_12_apply, val_main_v83_apply, val_main_v84_apply, val_main_v85_apply, val_main_cst_13_apply, val_main_cst_14_apply, val_main_v87_apply, val_main_v88_apply, val_main_v89_apply, val_main_v90_apply, val_main_cst_15_apply, val_main_cst_16_apply, val_main_cst_17_apply, val_main_cst_18_apply, read_v8, read_v10, read_v18, read_v20]
  rfl
theorem ob_summand (j : Cells.Idx) : val_main_v85 (F := Ideal) x0 x1 x2 j = μ x2 j * obAt x0 x1 j := by
  simp only [val_main_c_apply, val_main_v0_apply, val_main_v1_apply, val_main_v2_apply, val_main_cst_apply, val_main_v21_apply, val_main_v22_apply, val_main_cst_0_apply, val_main_v23_apply, val_main_v24_apply, val_main_v25_apply, val_main_cst_1_apply, val_main_v26_apply, val_main_v27_apply, val_main_v28_apply, val_main_cst_2_apply, val_main_v29_apply, val_main_v30_apply, val_main_v31_apply, val_main_cst_3_apply, val_main_v32_apply, val_main_v33_apply, val_main_v34_apply, val_main_cst_4_apply, val_main_v35_apply, val_main_v36_apply, val_main_cst_5_apply, val_main_v37_apply, val_main_v38_apply, val_main_v39_apply, val_main_cst_6_apply, val_main_v40_apply, val_main_v41_apply, val_main_v42_apply, val_main_cst_7_apply, val_main_v43_apply, val_main_v44_apply, val_main_v45_apply, val_main_cst_8_apply, val_main_v46_apply, val_main_v47_apply, val_main_v48_apply, val_main_v49_apply, val_main_v50_apply, val_main_v51_apply, val_main_cst_9_apply, val_main_v52_apply, val_main_v53_apply, val_main_v54_apply, val_main_v55_apply, val_main_v56_apply, val_main_cst_10_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_cst_11_apply, val_main_v72_apply, val_main_v73_apply, val_main_v74_apply, val_main_v75_apply, val_main_v76_apply, val_main_v77_apply, val_main_v78_apply, val_main_v79_apply, val_main_v80_apply, val_main_v81_apply, val_main_cst_12_apply, val_main_v83_apply, val_main_v84_apply, val_main_v85_apply, val_main_cst_13_apply, val_main_cst_14_apply, val_main_v87_apply, val_main_v88_apply, val_main_v89_apply, val_main_v90_apply, val_main_cst_15_apply, val_main_cst_16_apply, val_main_cst_17_apply, val_main_cst_18_apply, read_v8, read_v10, read_v12, read_v18, read_v20]
  rfl
theorem nb_summand (j : Cells.Idx) : val_main_v90 (F := Ideal) x0 x2 j = ((one : Ideal .f32) - μ x2 j) * nbAt x0 j := by
  simp only [val_main_c_apply, val_main_v0_apply, val_main_v1_apply, val_main_v2_apply, val_main_cst_apply, val_main_v21_apply, val_main_v22_apply, val_main_cst_0_apply, val_main_v23_apply, val_main_v24_apply, val_main_v25_apply, val_main_cst_1_apply, val_main_v26_apply, val_main_v27_apply, val_main_v28_apply, val_main_cst_2_apply, val_main_v29_apply, val_main_v30_apply, val_main_v31_apply, val_main_cst_3_apply, val_main_v32_apply, val_main_v33_apply, val_main_v34_apply, val_main_cst_4_apply, val_main_v35_apply, val_main_v36_apply, val_main_cst_5_apply, val_main_v37_apply, val_main_v38_apply, val_main_v39_apply, val_main_cst_6_apply, val_main_v40_apply, val_main_v41_apply, val_main_v42_apply, val_main_cst_7_apply, val_main_v43_apply, val_main_v44_apply, val_main_v45_apply, val_main_cst_8_apply, val_main_v46_apply, val_main_v47_apply, val_main_v48_apply, val_main_v49_apply, val_main_v50_apply, val_main_v51_apply, val_main_cst_9_apply, val_main_v52_apply, val_main_v53_apply, val_main_v54_apply, val_main_v55_apply, val_main_v56_apply, val_main_cst_10_apply, val_main_v57_apply, val_main_v58_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_cst_11_apply, val_main_v72_apply, val_main_v73_apply, val_main_v74_apply, val_main_v75_apply, val_main_v76_apply, val_main_v77_apply, val_main_v78_apply, val_main_v79_apply, val_main_v80_apply, val_main_v81_apply, val_main_cst_12_apply, val_main_v83_apply, val_main_v84_apply, val_main_v85_apply, val_main_cst_13_apply, val_main_cst_14_apply, val_main_v87_apply, val_main_v88_apply, val_main_v89_apply, val_main_v90_apply, val_main_cst_15_apply, val_main_cst_16_apply, val_main_cst_17_apply, val_main_cst_18_apply, read_v12]
  rfl

/-- THE REFERENCE'S RESULT is the loss. -/
theorem result_eq (i : S_.Idx) : val_main_v97 (F := Ideal) x0 x1 x2 i = total x0 x1 x2 := by
  have s1 : val_main_v71 (F := Ideal) x0 x1 x2 i = ∑ j : Cells.Idx, μ x2 j * xyAt x0 x1 j := by
    rw [val_main_v71_apply]
    show Ideal.ofBits .f32 0x00000000#32 + _ = _
    rw [Ideal.ofBits_zero_f32, zero_add]
    exact Finset.sum_congr rfl fun j _ => xy_summand x0 x1 x2 j
  have s2 : val_main_v82 (F := Ideal) x0 x1 x2 i = ∑ j : Cells.Idx, μ x2 j * whAt x0 x1 j := by
    rw [val_main_v82_apply]
    show Ideal.ofBits .f32 0x00000000#32 + _ = _
    rw [Ideal.ofBits_zero_f32, zero_add]
    exact Finset.sum_congr rfl fun j _ => wh_summand x0 x1 x2 j
  have s3 : val_main_v86 (F := Ideal) x0 x1 x2 i = ∑ j : Cells.Idx, μ x2 j * obAt x0 x1 j := by
    rw [val_main_v86_apply]
    show Ideal.ofBits .f32 0x00000000#32 + _ = _
    rw [Ideal.ofBits_zero_f32, zero_add]
    exact Finset.sum_congr rfl fun j _ => ob_summand x0 x1 x2 j
  have s4 : val_main_v91 (F := Ideal) x0 x2 i = ∑ j : Cells.Idx, ((one : Ideal .f32) - μ x2 j) * nbAt x0 j := by
    rw [val_main_v91_apply]
    show Ideal.ofBits .f32 0x00000000#32 + _ = _
    rw [Ideal.ofBits_zero_f32, zero_add]
    exact Finset.sum_congr rfl fun j _ => nb_summand x0 x2 j
  rw [val_main_v97_apply, val_main_v96_apply, val_main_v95_apply, val_main_v94_apply, val_main_v93_apply, val_main_v92_apply,
    s1, s2, s3, s4]
  unfold total
  rw [sum_cells_regroup]
  rfl

end Cert.RefTotal

end
-- ==== Proof.lean ====
/-
  The five claims about a detection loss summed over 1024 × 80 × 80 cells.

  Each cell has a predicted box and confidence, a target box and an object word; its mask `m` is 1 or 0; from the boxes come
  the terms xy, wh, obj and noobj (Proof/CellLoss.lean). The result is a single number.

  * The accumulating program lays the two channels-last arrays channel-major with the spatial axes merged, walks 16 grid
    points of 64 rows each (two cores, eight points per core), adds every cell's contribution
    (5·m)·(xy + wh) + m·obj + (½·(1 − m))·noobj into an accumulator kept between a core's points, totals the accumulator at
    the core's last point, and finally adds the two cores' totals and divides by 1024.
  * The reference totals m·xy, m·wh, m·obj and (1 − m)·noobj over all cells separately and returns
    (5·(Σ m·xy + Σ m·wh) + Σ m·obj + ½·Σ (1 − m)·noobj) / 1024.

  On the extended reals both are `total` of the arguments (Proof/LossTotal.lean): sums may be regrouped and re-ordered
  freely, a 0/1 mask distributes over a sum, and the nonnegative real factors 5 and ½ distribute over any finite sum, so no
  finiteness of the inputs is needed. The kernel's side is Proof/KernelPieces … KernelResult (what each grid point leaves,
  the accumulator in closed form, the output array, the lines after the grid); the reference's side is Proof/RefTotal.
  The three frames are the generated ones (the reference's is its generated run with the result dropped), and the
  idealization rewrote nothing, so `preserves` is trivial.
-/
import proofs.«100956_j25546465477236_2_alg».proof.Defs
import proofs.«100956_j25546465477236_2_alg».proof.Proof.Gen.Kernel
import proofs.«100956_j25546465477236_2_alg».proof.Proof.Gen.Kernel.Skeleton
import proofs.«100956_j25546465477236_2_alg».proof.Proof.Gen.Kernel.Launch
import proofs.«100956_j25546465477236_2_alg».proof.Proof.Gen.Kernel.Points
import proofs.«100956_j25546465477236_2_alg».proof.Proof.Gen.Kernel.Frame
import proofs.«100956_j25546465477236_2_alg».proof.Proof.Gen.KernelIdeal
import proofs.«100956_j25546465477236_2_alg».proof.Proof.Gen.KernelIdeal.Skeleton
import proofs.«100956_j25546465477236_2_alg».proof.Proof.Gen.KernelIdeal.Launch
import proofs.«100956_j25546465477236_2_alg».proof.Proof.Gen.KernelIdeal.Points
import proofs.«100956_j25546465477236_2_alg».proof.Proof.Gen.KernelIdeal.Frame
import proofs.«100956_j25546465477236_2_alg».proof.Proof.Gen.ReferenceIdeal
import proofs.«100956_j25546465477236_2_alg».proof.Proof.Gen.ReferenceIdeal.Run
import proofs.«100956_j25546465477236_2_alg».proof.Proof.Gen.ReferenceIdeal.Read
import proofs.«100956_j25546465477236_2_alg».proof.Proof.Gen.Pre_finite_inputs
import proofs.«100956_j25546465477236_2_alg».proof.Proof.KernelResult
import proofs.«100956_j25546465477236_2_alg».proof.Proof.RefTotal
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no grid: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs, run from memories that agree on the three arguments, end at the loss of those arguments. -/
theorem algebraic : Cert.algebraic_KernelIdeal_ReferenceIdeal := by
  intro m ρ m' ρ' _ hagree
  refine ⟨fun c => (fun _ => Cert.LossTotal.total (Cert.KernelIdeal.Acc.argPred m c) (Cert.KernelIdeal.Acc.argTarg m c)
    (Cert.KernelIdeal.Acc.argObj m c)), Cert.KernelIdeal.Acc.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v97_eq, (hagree c).1, (hagree c).2.1, (hagree c).2.2]
  exact funext fun i => Cert.RefTotal.result_eq _ _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
